-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S128 .f32) (main_arg10 : FVec F S1x128 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S256x256 .f32) (main_arg6 : FVec F S256 .f32) (main_arg7 : FVec F S256x256 .f32) (main_arg8 : FVec F S128x256 .f32) (main_arg9 : FVec F S128 .f32) (main_arg10 : FVec F S1x128 .f32) (main_arg11 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S128x256 .f32) (main_arg9 : FVec F S128 .f32) (main_arg10 : FVec F S1x128 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S100000x256 : Shape := ⟨2, ![100000, 256]⟩
abbrev S1x256 : Shape := ⟨2, ![1, 256]⟩
abbrev S2000x256 : Shape := ⟨2, ![2000, 256]⟩
abbrev S600000x256 : Shape := ⟨2, ![600000, 256]⟩
abbrev S100000x512 : Shape := ⟨2, ![100000, 512]⟩
abbrev S256x512 : Shape := ⟨2, ![256, 512]⟩
abbrev S512x256 : Shape := ⟨2, ![512, 256]⟩
abbrev S2000x512 : Shape := ⟨2, ![2000, 512]⟩
abbrev S128x1 : Shape := ⟨2, ![128, 1]⟩
abbrev S1x1 : Shape := ⟨2, ![1, 1]⟩
abbrev S2000x1 : Shape := ⟨2, ![2000, 1]⟩
abbrev S2000x128 : Shape := ⟨2, ![2000, 128]⟩
abbrev S100000 : Shape := ⟨1, ![100000]⟩

abbrev nBuf : Space → Nat
  | .hbm => 80
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000x1, .f32⟩
  | .hbm, ⟨31, _⟩ => ⟨S_, .f32⟩
  | .hbm, ⟨32, _⟩ => ⟨S100000x1, .f32⟩
  | .hbm, ⟨33, _⟩ => ⟨S600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x256, .f32⟩
  | .hbm, ⟨41, _⟩ => ⟨S256x256, .f32⟩
  | .hbm, ⟨42, _⟩ => ⟨S256x256, .f32⟩
  | .hbm, ⟨43, _⟩ => ⟨S1x256, .f32⟩
  | .hbm, ⟨44, _⟩ => ⟨S100000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S100000x256, .f32⟩
  | .hbm, ⟨56, _⟩ => ⟨S600000x1, .i32⟩
  | .hbm, ⟨57, _⟩ => ⟨S100000x256, .f32⟩
  | .hbm, ⟨58, _⟩ => ⟨S_, .f32⟩
  | .hbm, ⟨59, _⟩ => ⟨S600000x1, .f32⟩
  | .hbm, ⟨60, _⟩ => ⟨S_, .f32⟩
  | .hbm, ⟨61, _⟩ => ⟨S100000x1, .f32⟩
  | .hbm, ⟨62, _⟩ => ⟨S600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x256, .f32⟩
  | .hbm, ⟨68, _⟩ => ⟨S100000x256, .f32⟩
  | .hbm, ⟨69, _⟩ => ⟨S100000x512, .f32⟩
  | .hbm, ⟨70, _⟩ => ⟨S256x512, .f32⟩
  | .hbm, ⟨71, _⟩ => ⟨S512x256, .f32⟩
  | .hbm, ⟨72, _⟩ => ⟨S1x256, .f32⟩
  | .hbm, ⟨73, _⟩ => ⟨S100000x256, .f32⟩
  | .hbm, ⟨74, _⟩ => ⟨S256x128, .f32⟩
  | .hbm, ⟨75, _⟩ => ⟨S128x1, .f32⟩
  | .hbm, ⟨76, _⟩ => ⟨S1x128, .f32⟩
  | .hbm, ⟨77, _⟩ => ⟨S1x1, .f32⟩
  | .hbm, ⟨78, _⟩ => ⟨S100000x1, .f32⟩
  | .hbm, ⟨79, _⟩ => ⟨S100000, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x512, .f32⟩
  | .local _ .vmem, ⟨7, _⟩ => ⟨S2000x512, .f32⟩
  | .local _ .vmem, ⟨8, _⟩ => ⟨S512x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  concatenates_S256x128_S256x128_S256x256_d1 : Shape.Concatenates [S256x128, S256x128] S256x256 1
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  concatenates_S100000x256_S100000x256_S100000x512_d1 : Shape.Concatenates [S100000x256, S100000x256] S100000x512 1
  concatenates_S256x256_S256x256_S256x512_d1 : Shape.Concatenates [S256x256, S256x256] S256x512 1
  transposes_S256x512_S512x256_1_0 : S256x512.Transposes [1, 0] S512x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S128x256_S256x128_1_0 : S128x256.Transposes [1, 0] S256x128
  transposes_S1x128_S128x1_1_0 : S1x128.Transposes [1, 0] S128x1
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S2000x256_S256x256_S2000x256_1_0_0_1_n_n_wf : DotDims.WF S2000x256 S256x256 S2000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S2000x512_S512x256_S2000x256_1_0_0_1_n_n_wf : DotDims.WF S2000x512 S512x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S100000x256.size a
  hwx1_3 : ∀ i : grid1.Coords, EltTy.bits .f32 = 32 ∨ (Rect.block (s := S100000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S100000x256 : Shape := ⟨2, ![100000, 256]⟩
abbrev S1x256 : Shape := ⟨2, ![1, 256]⟩
abbrev S600000x256 : Shape := ⟨2, ![600000, 256]⟩
abbrev S128x1 : Shape := ⟨2, ![128, 1]⟩
abbrev S1x1 : Shape := ⟨2, ![1, 1]⟩
abbrev S100000 : Shape := ⟨1, ![100000]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000x1, .f32⟩
  | .hbm, ⟨31, _⟩ => ⟨S_, .f32⟩
  | .hbm, ⟨32, _⟩ => ⟨S100000x1, .f32⟩
  | .hbm, ⟨33, _⟩ => ⟨S600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S128x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .i1⟩
  | .hbm, ⟨51, _⟩ => ⟨S_, .f32⟩
  | .hbm, ⟨52, _⟩ => ⟨S100000x256, .f32⟩
  | .hbm, ⟨53, _⟩ => ⟨S100000x256, .i1⟩
  | .hbm, ⟨54, _⟩ => ⟨S_, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S100000x256, .f32⟩
  | .hbm, ⟨59, _⟩ => ⟨S_, .f32⟩
  | .hbm, ⟨60, _⟩ => ⟨S100000x256, .f32⟩
  | .hbm, ⟨61, _⟩ => ⟨S100000x256, .f32⟩
  | .hbm, ⟨62, _⟩ => ⟨S100000x256, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x256, .f32⟩
  | .hbm, ⟨72, _⟩ => ⟨S_, .f32⟩
  | .hbm, ⟨73, _⟩ => ⟨S100000x256, .f32⟩
  | .hbm, ⟨74, _⟩ => ⟨S600000x1, .i32⟩
  | .hbm, ⟨75, _⟩ => ⟨S100000x256, .f32⟩
  | .hbm, ⟨76, _⟩ => ⟨S_, .f32⟩
  | .hbm, ⟨77, _⟩ => ⟨S600000x1, .f32⟩
  | .hbm, ⟨78, _⟩ => ⟨S_, .f32⟩
  | .hbm, ⟨79, _⟩ => ⟨S100000x1, .f32⟩
  | .hbm, ⟨80, _⟩ => ⟨S600000x1, .i32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x256, .f32⟩
  | .hbm, ⟨86, _⟩ => ⟨S100000x256, .f32⟩
  | .hbm, ⟨87, _⟩ => ⟨S256x256, .f32⟩
  | .hbm, ⟨88, _⟩ => ⟨S100000x256, .f32⟩
  | .hbm, ⟨89, _⟩ => ⟨S1x256, .f32⟩
  | .hbm, ⟨90, _⟩ => ⟨S100000x256, .f32⟩
  | .hbm, ⟨91, _⟩ => ⟨S100000x256, .f32⟩
  | .hbm, ⟨92, _⟩ => ⟨S256x256, .f32⟩
  | .hbm, ⟨93, _⟩ => ⟨S100000x256, .f32⟩
  | .hbm, ⟨94, _⟩ => ⟨S100000x256, .f32⟩
  | .hbm, ⟨95, _⟩ => ⟨S_, .f32⟩
  | .hbm, ⟨96, _⟩ => ⟨S100000x256, .f32⟩
  | .hbm, ⟨97, _⟩ => ⟨S100000x256, .i1⟩
  | .hbm, ⟨98, _⟩ => ⟨S_, .f32⟩
  | .hbm, ⟨99, _⟩ => ⟨S100000x256, .f32⟩
  | .hbm, ⟨100, _⟩ => ⟨S100000x256, .i1⟩
  | .hbm, ⟨101, _⟩ => ⟨S_, .f32⟩
  | .hbm, ⟨102, _⟩ => ⟨S_, .f32⟩
  | .hbm, ⟨103, _⟩ => ⟨S100000x256, .f32⟩
  | .hbm, ⟨104, _⟩ => ⟨S100000x256, .f32⟩
  | .hbm, ⟨105, _⟩ => ⟨S100000x256, .f32⟩
  | .hbm, ⟨106, _⟩ => ⟨S_, .f32⟩
  | .hbm, ⟨107, _⟩ => ⟨S100000x256, .f32⟩
  | .hbm, ⟨108, _⟩ => ⟨S100000x256, .f32⟩
  | .hbm, ⟨109, _⟩ => ⟨S100000x256, .f32⟩
  | .hbm, ⟨110, _⟩ => ⟨S256x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | .hbm, ⟨118, _⟩ => ⟨S128x1, .f32⟩
  | .hbm, ⟨119, _⟩ => ⟨S100000x1, .f32⟩
  | .hbm, ⟨120, _⟩ => ⟨S1x1, .f32⟩
  | .hbm, ⟨121, _⟩ => ⟨S100000x1, .f32⟩
  | .hbm, ⟨122, _⟩ => ⟨S100000x1, .f32⟩
  | .hbm, ⟨123, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_cst_1 : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_v4 : Ref sig .tc := ⟨.hbm, 57, rfl⟩
abbrev main_call0_v5 : Ref sig .tc := ⟨.hbm, 58, rfl⟩
abbrev main_call0_cst_2 : Ref sig .tc := ⟨.hbm, 59, rfl⟩
abbrev main_call0_v6 : Ref sig .tc := ⟨.hbm, 60, rfl⟩
abbrev main_call0_v7 : Ref sig .tc := ⟨.hbm, 61, rfl⟩
abbrev main_v30 : Ref sig .tc := ⟨.hbm, 62, rfl⟩
abbrev main_c_4 : Ref sig .tc := ⟨.hbm, 63, rfl⟩
abbrev main_v31 : Ref sig .tc := ⟨.hbm, 64, rfl⟩
abbrev main_v32 : Ref sig .tc := ⟨.hbm, 65, rfl⟩
abbrev main_c_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_9 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_cst_1 : Ref sig .tc := ⟨.hbm, 101, rfl⟩
abbrev main_call1_call0_v0 : Ref sig .tc := ⟨.hbm, 102, rfl⟩
abbrev main_call1_call0_v1 : Ref sig .tc := ⟨.hbm, 103, rfl⟩
abbrev main_call1_v4 : Ref sig .tc := ⟨.hbm, 104, rfl⟩
abbrev main_call1_v5 : Ref sig .tc := ⟨.hbm, 105, rfl⟩
abbrev main_call1_cst_2 : Ref sig .tc := ⟨.hbm, 106, rfl⟩
abbrev main_call1_v6 : Ref sig .tc := ⟨.hbm, 107, rfl⟩
abbrev main_call1_v7 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call2_cst : Ref sig .tc := ⟨.hbm, 115, rfl⟩
abbrev main_call2_v0 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KerRun.lean ====
/-
  The kernel program's run with its result named.

  From any memory, every weakly fair execution of the program terminates without a fault; at the end the argument
  arrays are as launched and the result vector holds what the last host stretch leaves in it: the fold of the host
  stretches and of the three launches' write-backs over the launch memory.  The run goes segment by segment through the
  program's seven segments (four host stretches, three launches); the last segment's buffer contents are read against
  the final memory.
-/
import proofs.«100533_j71442486002111_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result vector at the last boundary's contents
    and the twelve argument arrays as launched. -/
theorem run_out : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Hand

end
-- ==== Proof.SpecKer.lean ====
/-
  What the kernel program computes, as one term of its argument arrays, named piece by piece.

  Its three grid launches each compute, row block by row block, one whole-array function of their operands:
  a convolution layer's combine step `elu (z · w + b)` (twice: with 256 and with 512 input columns), where
  `z` is the mean aggregation and the node features side by side, `w` the two weight matrices side by side,
  transposed, and `b` the bias as a one-row matrix; and the head `relu (h · w1 + b1) · w2 + b2`.  Between the
  launches the host computes the mean aggregation exactly as the reference does, concatenates, transposes and
  reshapes.
-/
import proofs.«100533_j71442486002111_1_alg».proof.Proof.Gen.KernelIdeal
import Idealize.ShloMosaic.Lib.ValueIdx
import Idealize.ShloMosaic.PureOps.Ideal

noncomputable section

open scoped BigOperators

namespace Cert.KernelIdeal.Spec

open Idealize.ShloMosaic Idealize.ShloMosaic.ValueIdx Cert.KernelIdeal Cert.KernelIdeal.Facts₀

variable {F : FTy → Type} [FloatOps F]

/-- The contents of a buffer of shape `S` and element type `φ`. -/
abbrev C (F : FTy → Type) [FloatOps F] (S : Shape) (φ : EltTy) : Type := (⟨S, φ⟩ : BufTy).Contents (Elt F)

/-- Row 0 of the edge list: each edge's source node. -/
def srcRow (e : C F S2x600000 .i32) : C F S600000 .i32 :=
  shapeCast S600000 (extractStridedSlice S1x600000 ![0, 0] e slices_S2x600000_S1x600000_0_0) shapeCasts_S1x600000_S600000

/-- Row 1 of the edge list: each edge's destination node. -/
def dstRow (e : C F S2x600000 .i32) : C F S600000 .i32 :=
  shapeCast S600000 (extractStridedSlice S1x600000 ![1, 0] e slices_S2x600000_S1x600000_1_0) shapeCasts_S1x600000_S600000

/-- The source nodes as a column of gather indices, a negative index counted from the end. -/
def srcCol (e : C F S2x600000 .i32) : C F S600000x1 .i32 :=
  broadcastInDim S600000x1 ![0] bcast_S600000_S600000x1_0
    (select (cmpi .slt (srcRow e) (broadcastInDim S600000 ![] bcast_S_S600000 (constantI S_ 32 0#32)))
      (addi (srcRow e) (broadcastInDim S600000 ![] bcast_S_S600000 (constantI S_ 32 100000#32)))
      (srcRow e))

/-- The destination nodes as a column of scatter indices. -/
def dstCol (e : C F S2x600000 .i32) : C F S600000x1 .i32 :=
  broadcastInDim S600000x1 ![0] bcast_S600000_S600000x1_0 (dstRow e)

/-- The number of edges into each node, at least one. -/
def degree (e : C F S2x600000 .i32) : C F S100000x1 .f32 :=
  maximumf
    (Host.scatterAdd scatter_S100000x1_S600000x1_S600000x1_1_0_0_1
      (broadcastInDim S100000x1 ![] bcast_S_S100000x1 (constant S_ .f32 0x00000000#32))
      (dstCol e)
      (broadcastInDim S600000x1 ![] bcast_S_S600000x1 (constant S_ .f32 0x3F800000#32)))
    (broadcastInDim S100000x1 ![] bcast_S_S100000x1 (constant S_ .f32 0x3F800000#32))

/-- Mean aggregation of 128 features per node. -/
def segMean128 (x : C F S100000x128 .f32) (e : C F S2x600000 .i32) : C F S100000x128 .f32 :=
  Host.divf
    (Host.scatterAdd scatter_S100000x128_S600000x1_S600000x128_1_0_0_1
      (broadcastInDim S100000x128 ![] bcast_S_S100000x128 (constant S_ .f32 0x00000000#32))
      (dstCol e)
      (Host.gather gather_S100000x128_S600000x1_S600000x128_1_0_n_n_0_1_1128 x (srcCol e)))
    (broadcastInDim S100000x128 ![0, 1] bcast_S100000x1_S100000x128_0_1 (degree e))

/-- Mean aggregation of 256 features per node. -/
def segMean256 (h : C F S100000x256 .f32) (e : C F S2x600000 .i32) : C F S100000x256 .f32 :=
  Host.divf
    (Host.scatterAdd scatter_S100000x256_S600000x1_S600000x256_1_0_0_1
      (broadcastInDim S100000x256 ![] bcast_S_S100000x256 (constant S_ .f32 0x00000000#32))
      (dstCol e)
      (Host.gather gather_S100000x256_S600000x1_S600000x256_1_0_n_n_0_1_1256 h (srcCol e)))
    (broadcastInDim S100000x256 ![0, 1] bcast_S100000x1_S100000x256_0_1 (degree e))

/-! ## The three launches, each as one function of whole arrays, at the extended reals -/

/-- The exponential linear unit as the kernel spells it: `a` where `a > 0`, else `e^a - 1`. -/
def eluK (a : EReal) : EReal :=
  Scalar.select (Ideal.cmp .ogt a (Ideal.ofBits .f32 0x00000000#32)) a (Ideal.exp a - Ideal.ofBits .f32 0x3F800000#32)

/-- The first layer's combine step: entry `(p, q)` is `elu (∑ k < 256, z[p,k] · w[k,q] + b[0,q])`. -/
def sage256 (z : FVec Ideal S100000x256 .f32) (w : FVec Ideal S256x256 .f32) (b : FVec Ideal S1x256 .f32) :
    FVec Ideal S100000x256 .f32 := fun i =>
  let p : Fin 100000 := i 0
  let q : Fin 256 := i 1
  eluK ((∑ k : Fin 256, z (ix2 p k) * w (ix2 k q)) + b (ix2 (0 : Fin 1) q))

/-- The second layer's combine step: entry `(p, q)` is `elu (∑ k < 512, z[p,k] · w[k,q] + b[0,q])`. -/
def sage512 (z : FVec Ideal S100000x512 .f32) (w : FVec Ideal S512x256 .f32) (b : FVec Ideal S1x256 .f32) :
    FVec Ideal S100000x256 .f32 := fun i =>
  let p : Fin 100000 := i 0
  let q : Fin 256 := i 1
  eluK ((∑ k : Fin 512, z (ix2 p k) * w (ix2 k q)) + b (ix2 (0 : Fin 1) q))

/-- The head: entry `(p, 0)` is `∑ j < 128, max (∑ k < 256, h[p,k] · w1[k,j] + b1[0,j]) 0 · w2[j,0] + b2[0,0]`. -/
def headK (h : FVec Ideal S100000x256 .f32) (w1 : FVec Ideal S256x128 .f32) (b1 : FVec Ideal S1x128 .f32)
    (w2 : FVec Ideal S128x1 .f32) (b2 : FVec Ideal S1x1 .f32) : FVec Ideal S100000x1 .f32 := fun i =>
  let p : Fin 100000 := i 0
  let q : Fin 1 := i 1
  (∑ j : Fin 128, max ((∑ k : Fin 256, h (ix2 p k) * w1 (ix2 k j)) + b1 (ix2 (0 : Fin 1) j)) (Ideal.ofBits .f32 0x00000000#32)
      * w2 (ix2 j q))
    + b2 (ix2 (0 : Fin 1) q)

/-! ## The host side around the launches -/

/-- The first layer's left operand: the mean aggregation and the features side by side. -/
def z1 (x : C Ideal S100000x128 .f32) (e : C Ideal S2x600000 .i32) : C Ideal S100000x256 .f32 :=
  concatenate S100000x256 1 [⟨S100000x128, segMean128 x e⟩, ⟨S100000x128, x⟩] concatenates_S100000x128_S100000x128_S100000x256_d1

/-- The first layer's right operand: the two weight matrices side by side, transposed. -/
def w1T (Wl Wr : C Ideal S256x128 .f32) : C Ideal S256x256 .f32 :=
  transpose S256x256 [1, 0]
    (concatenate S256x256 1 [⟨S256x128, Wl⟩, ⟨S256x128, Wr⟩] concatenates_S256x128_S256x128_S256x256_d1)
    transposes_S256x256_S256x256_1_0

/-- A bias vector of 256 entries as a one-row matrix. -/
def row256 (b : C Ideal S256 .f32) : C Ideal S1x256 .f32 := shapeCast S1x256 b shapeCasts_S256_S1x256

/-- The first convolution layer. -/
def h1 (x : C Ideal S100000x128 .f32) (e : C Ideal S2x600000 .i32) (Wl : C Ideal S256x128 .f32) (b : C Ideal S256 .f32)
    (Wr : C Ideal S256x128 .f32) : C Ideal S100000x256 .f32 :=
  sage256 (z1 x e) (w1T Wl Wr) (row256 b)

/-- The second layer's left operand. -/
def z2 (h : C Ideal S100000x256 .f32) (e : C Ideal S2x600000 .i32) : C Ideal S100000x512 .f32 :=
  concatenate S100000x512 1 [⟨S100000x256, segMean256 h e⟩, ⟨S100000x256, h⟩] concatenates_S100000x256_S100000x256_S100000x512_d1

/-- The second layer's right operand. -/
def w2T (Wl Wr : C Ideal S256x256 .f32) : C Ideal S512x256 .f32 :=
  transpose S512x256 [1, 0]
    (concatenate S256x512 1 [⟨S256x256, Wl⟩, ⟨S256x256, Wr⟩] concatenates_S256x256_S256x256_S256x512_d1)
    transposes_S256x512_S512x256_1_0

/-- The second convolution layer. -/
def h2 (h : C Ideal S100000x256 .f32) (e : C Ideal S2x600000 .i32) (Wl : C Ideal S256x256 .f32) (b : C Ideal S256 .f32)
    (Wr : C Ideal S256x256 .f32) : C Ideal S100000x256 .f32 :=
  sage512 (z2 h e) (w2T Wl Wr) (row256 b)

/-- The head on the second layer's output, flattened. -/
def headFlat (h : C Ideal S100000x256 .f32) (Wf1 : C Ideal S128x256 .f32) (bf1 : C Ideal S128 .f32) (Wf2 : C Ideal S1x128 .f32)
    (bf2 : C Ideal S1 .f32) : C Ideal S100000 .f32 :=
  shapeCast S100000
    (headK h (transpose S256x128 [1, 0] Wf1 transposes_S128x256_S256x128_1_0) (shapeCast S1x128 bf1 shapeCasts_S128_S1x128)
      (transpose S128x1 [1, 0] Wf2 transposes_S1x128_S128x1_1_0) (shapeCast S1x1 bf2 shapeCasts_S1_S1x1))
    shapeCasts_S100000x1_S100000

/-- The whole network. -/
def out (x : C Ideal S100000x128 .f32) (e : C Ideal S2x600000 .i32) (W1l : C Ideal S256x128 .f32) (b1 : C Ideal S256 .f32)
    (W1r : C Ideal S256x128 .f32) (W2l : C Ideal S256x256 .f32) (b2 : C Ideal S256 .f32) (W2r : C Ideal S256x256 .f32)
    (Wf1 : C Ideal S128x256 .f32) (bf1 : C Ideal S128 .f32) (Wf2 : C Ideal S1x128 .f32) (bf2 : C Ideal S1 .f32) : C Ideal S100000 .f32 :=
  headFlat (h2 (h1 x e W1l b1 W1r) e W2l b2 W2r) Wf1 bf1 Wf2 bf2

end Cert.KernelIdeal.Spec

end
-- ==== Proof.HostStretches.lean ====
/-
  The kernel program's host stretches, each read as pure functions of the buffers it starts from.

  Before the first launch the host computes the mean aggregation of the node features, puts it beside the features,
  puts the two weight matrices side by side and transposes them, and turns the bias into a one-row matrix; before the
  second launch it does the same with the first layer's output; before the third it transposes the head's two weight
  matrices and turns its two biases into one-row matrices; after it, it flattens the result.  Nothing else is written.
-/
import proofs.«100533_j71442486002111_1_alg».proof.Proof.Gen.KernelIdeal.Launch
import proofs.«100533_j71442486002111_1_alg».proof.Proof.SpecKer
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

/-! ## Before the first launch -/

/-- The mean aggregation and the features side by side. (The two halves are read separately: each is a buffer the
    stretch has written, or the argument itself.) -/
theorem s0_z : after (hostOps0 (F := Ideal)) W (Proc.devRef .tc main_v22) = Spec.z1 (W (Proc.devRef .tc main_arg0)) (W (Proc.devRef .tc main_arg1)) := by
  dsimp only [hostOps0]; after_results_simp
  refine congrArg₂ (fun a b => concatenate S100000x256 1 [⟨S100000x128, a⟩, ⟨S100000x128, b⟩]
    Facts₀.concatenates_S100000x128_S100000x128_S100000x256_d1) ?_ ?_
  · after_results_simp; rfl
  · after_results_simp

theorem s0_w : after (hostOps0 (F := Ideal)) W (Proc.devRef .tc main_v24) = Spec.w1T (W (Proc.devRef .tc main_arg2)) (W (Proc.devRef .tc main_arg4)) := by
  dsimp only [hostOps0]; after_results_simp
  refine congrArg₂ (fun a b => transpose S256x256 [1, 0] (concatenate S256x256 1 [⟨S256x128, a⟩, ⟨S256x128, b⟩]
    Facts₀.concatenates_S256x128_S256x128_S256x256_d1) Facts₀.transposes_S256x256_S256x256_1_0) ?_ ?_
  · after_results_simp
  · after_results_simp

theorem s0_b : after (hostOps0 (F := Ideal)) W (Proc.devRef .tc main_v25) = Spec.row256 (W (Proc.devRef .tc main_arg3)) := by
  dsimp only [hostOps0]; after_results_simp; rfl

theorem s0_src : after (hostOps0 (F := Ideal)) W (Proc.devRef .tc main_v1) = Spec.srcRow (W (Proc.devRef .tc main_arg1)) := by
  dsimp only [hostOps0]; after_results_simp; rfl

theorem s0_dst : after (hostOps0 (F := Ideal)) W (Proc.devRef .tc main_v3) = Spec.dstRow (W (Proc.devRef .tc main_arg1)) := by
  dsimp only [hostOps0]; after_results_simp; rfl

theorem s0_arg5 : after (hostOps0 (F := Ideal)) W (Proc.devRef .tc main_arg5) = W (Proc.devRef .tc main_arg5) := by
  dsimp only [hostOps0]; after_results_simp

theorem s0_arg6 : after (hostOps0 (F := Ideal)) W (Proc.devRef .tc main_arg6) = W (Proc.devRef .tc main_arg6) := by
  dsimp only [hostOps0]; after_results_simp

theorem s0_arg7 : after (hostOps0 (F := Ideal)) W (Proc.devRef .tc main_arg7) = W (Proc.devRef .tc main_arg7) := by
  dsimp only [hostOps0]; after_results_simp

theorem s0_arg8 : after (hostOps0 (F := Ideal)) W (Proc.devRef .tc main_arg8) = W (Proc.devRef .tc main_arg8) := by
  dsimp only [hostOps0]; after_results_simp

theorem s0_arg9 : after (hostOps0 (F := Ideal)) W (Proc.devRef .tc main_arg9) = W (Proc.devRef .tc main_arg9) := by
  dsimp only [hostOps0]; after_results_simp

theorem s0_arg10 : after (hostOps0 (F := Ideal)) W (Proc.devRef .tc main_arg10) = W (Proc.devRef .tc main_arg10) := by
  dsimp only [hostOps0]; after_results_simp

theorem s0_arg11 : after (hostOps0 (F := Ideal)) W (Proc.devRef .tc main_arg11) = W (Proc.devRef .tc main_arg11) := by
  dsimp only [hostOps0]; after_results_simp

/-! ## Before the second launch -/

theorem s1_z (e : Spec.C Ideal S2x600000 .i32) (hsrc : W (Proc.devRef .tc main_v1) = Spec.srcRow e) (hdst : W (Proc.devRef .tc main_v3) = Spec.dstRow e) :
    after (hostOps1 (F := Ideal)) W (Proc.devRef .tc main_v45) = Spec.z2 (W (Proc.devRef .tc main_v26)) e := by
  dsimp only [hostOps1]; after_results_simp
  refine congrArg₂ (fun a b => concatenate S100000x512 1 [⟨S100000x256, a⟩, ⟨S100000x256, b⟩]
    Facts₀.concatenates_S100000x256_S100000x256_S100000x512_d1) ?_ ?_
  · after_results_simp; rw [hsrc, hdst]; rfl
  · after_results_simp

theorem s1_w : after (hostOps1 (F := Ideal)) W (Proc.devRef .tc main_v47) = Spec.w2T (W (Proc.devRef .tc main_arg5)) (W (Proc.devRef .tc main_arg7)) := by
  dsimp only [hostOps1]; after_results_simp
  refine congrArg₂ (fun a b => transpose S512x256 [1, 0] (concatenate S256x512 1 [⟨S256x256, a⟩, ⟨S256x256, b⟩]
    Facts₀.concatenates_S256x256_S256x256_S256x512_d1) Facts₀.transposes_S256x512_S512x256_1_0) ?_ ?_
  · after_results_simp
  · after_results_simp

theorem s1_b : after (hostOps1 (F := Ideal)) W (Proc.devRef .tc main_v48) = Spec.row256 (W (Proc.devRef .tc main_arg6)) := by
  dsimp only [hostOps1]; after_results_simp; rfl

theorem s1_arg8 : after (hostOps1 (F := Ideal)) W (Proc.devRef .tc main_arg8) = W (Proc.devRef .tc main_arg8) := by
  dsimp only [hostOps1]; after_results_simp

theorem s1_arg9 : after (hostOps1 (F := Ideal)) W (Proc.devRef .tc main_arg9) = W (Proc.devRef .tc main_arg9) := by
  dsimp only [hostOps1]; after_results_simp

theorem s1_arg10 : after (hostOps1 (F := Ideal)) W (Proc.devRef .tc main_arg10) = W (Proc.devRef .tc main_arg10) := by
  dsimp only [hostOps1]; after_results_simp

theorem s1_arg11 : after (hostOps1 (F := Ideal)) W (Proc.devRef .tc main_arg11) = W (Proc.devRef .tc main_arg11) := by
  dsimp only [hostOps1]; after_results_simp

/-! ## Before the third launch, and after it -/

theorem s2_h : after (hostOps2 (F := Ideal)) W (Proc.devRef .tc main_v49) = W (Proc.devRef .tc main_v49) := by
  dsimp only [hostOps2]; after_results

theorem s2_w1 : after (hostOps2 (F := Ideal)) W (Proc.devRef .tc main_v50)
    = transpose S256x128 [1, 0] (W (Proc.devRef .tc main_arg8)) Facts₀.transposes_S128x256_S256x128_1_0 := by
  dsimp only [hostOps2]; after_results <;> rfl

theorem s2_w2 : after (hostOps2 (F := Ideal)) W (Proc.devRef .tc main_v51)
    = transpose S128x1 [1, 0] (W (Proc.devRef .tc main_arg10)) Facts₀.transposes_S1x128_S128x1_1_0 := by
  dsimp only [hostOps2]; after_results <;> rfl

theorem s2_b1 : after (hostOps2 (F := Ideal)) W (Proc.devRef .tc main_v52)
    = shapeCast S1x128 (W (Proc.devRef .tc main_arg9)) Facts₀.shapeCasts_S128_S1x128 := by
  dsimp only [hostOps2]; after_results <;> rfl

theorem s2_b2 : after (hostOps2 (F := Ideal)) W (Proc.devRef .tc main_v53)
    = shapeCast S1x1 (W (Proc.devRef .tc main_arg11)) Facts₀.shapeCasts_S1_S1x1 := by
  dsimp only [hostOps2]; after_results <;> rfl

theorem s3_out : after (hostOps3 (F := Ideal)) W (Proc.devRef .tc main_v55)
    = shapeCast S100000 (W (Proc.devRef .tc main_v54)) Facts₀.shapeCasts_S100000x1_S100000 := by
  dsimp only [hostOps3]; after_results <;> rfl

end Cert.KernelIdeal.Hand

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Region0.lean ====
/-
  The first convolution layer's combine launch, read as one whole-array function.

  The launch walks 50 row blocks of 2000 rows.  At a block it multiplies the 2000×256 block of the left operand with
  the whole 256×256 right operand, adds the one-row bias to every row and applies the exponential linear unit; the
  result block is written back to the same rows of the output.  So after the launch the output array is, entry by
  entry, `elu (∑ k, z[p,k] · w[k,q] + b[0,q])` of the arrays the launch found.
-/
import proofs.«100533_j71442486002111_1_alg».proof.Proof.Gen.KernelIdeal.Frame
import proofs.«100533_j71442486002111_1_alg».proof.Proof.SpecKer
import proofs.«100533_j71442486002111_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The body's arithmetic at one entry of the block: the row of the left block against the column of the right
    operand, plus the bias entry of that column, through the exponential linear unit.  (Changes of float format and
    reshapes to the same shape are the identity on extended reals.) -/
theorem pay0_apply (x0 : Vec Ideal S2000x256 .f32) (x1 : Vec Ideal S256x256 .f32) (x2 : Vec Ideal S1x256 .f32)
    (p : Fin 2000) (q : Fin 256) :
    k0_pay1 (F := Ideal) x0 x1 x2 (ix2 p q)
      = Spec.eluK ((∑ k : Fin 256, x0 (ix2 p k) * x1 (ix2 k q)) + x2 (ix2 (0 : Fin 1) q)) := by
  unfold k0_pay1
  simp only [shapeCast_self]
  show Spec.eluK (FloatOps.matmul (F := Ideal) dot_S2000x256_S256x256_S2000x256_1_0_0_1_n_n none (truncf .bf16 x0 Facts₀.bitsLt_bf16_f32)
      (truncf .bf16 x1 Facts₀.bitsLt_bf16_f32) (constant S2000x256 .f32 0x00000000#32) (ix2 p q)
        + broadcastTo S2000x256 x2 Facts₀.broadcasts_S1x256_S2000x256 (ix2 p q)) = _
  rw [Cert.Lib.PlainDot.matmul_zero_apply dot_S2000x256_S256x256_S2000x256_1_0_0_1_n_n rfl rfl (fun _ _ => rfl) (fun _ _ => rfl)
      (fun _ _ => rfl) (fun _ _ => rfl), broadcastTo_1b_ab_apply]
  rfl

/-- One entry of a block's result is the whole-array function at the entry's place in the array: the left block's
    rows are rows `2000·n + p` of the left operand, the other two operands are read whole. -/
theorem block0_eq (z : S100000x256.Idx → EReal) (w : S256x256.Idx → EReal) (b : S1x256.Idx → EReal)
    (x0 : Vec Ideal S2000x256 .f32) (x1 : Vec Ideal S256x256 .f32) (x2 : Vec Ideal S1x256 .f32) (n : Nat) (hn : n < 50)
    (h0 : ∀ (p : Fin 2000) (k : Fin 256), x0 (ix2 p k) = z (ix2 (⟨n * 2000 + p.val, by omega⟩ : Fin 100000) k))
    (h1 : ∀ j, x1 j = w j) (h2 : ∀ j, x2 j = b j) (y : S2000x256.Idx) (i : S100000x256.Idx)
    (hi0 : (i 0).val = n * 2000 + (y 0).val) (hi1 : (i 1).val = (y 1).val) :
    k0_pay1 (F := Ideal) x0 x1 x2 y = Spec.sage256 z w b i := by
  obtain ⟨p, q, rfl⟩ : ∃ (p : Fin 2000) (q : Fin 256), y = ix2 p q := ⟨y 0, y 1, eq_ix2 y⟩
  obtain ⟨p', q', rfl⟩ : ∃ (p' : Fin 100000) (q' : Fin 256), i = ix2 p' q' := ⟨i 0, i 1, eq_ix2 i⟩
  have hlt : n * 2000 + p.val < 100000 := by have := p.isLt; omega
  have ep : p' = ⟨n * 2000 + p.val, hlt⟩ := Fin.ext hi0
  have eq' : q' = q := Fin.ext hi1
  subst ep eq'
  rw [pay0_apply]
  show _ = Spec.eluK ((∑ k : Fin 256, z (ix2 _ k) * w (ix2 k q')) + b (ix2 (0 : Fin 1) q'))
  rw [h2]
  refine congrArg (fun s => Spec.eluK (s + b (ix2 (0 : Fin 1) q'))) ?_
  exact Finset.sum_congr rfl fun k _ => by rw [h0, h1]

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the left operand's and the output's block move down the rows with the
    point, the other two operands stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array function of the arrays the launch found. -/
theorem flushed0_eq (c : Dev nD) (t : Fin cfg0.N) :
    (dat0 V c).flushed 3 t
      = ((cfg0.win 3).blk t).view.read (Elt Ideal) (Spec.sage256 (V c main_v22) (V c main_v24) (V c main_v25)) := by
  show (cfg0.win 3).cut (grid0.coords t) ((dat0 V c).after 3 t) = _
  rw [after0_3]
  unfold out0_3
  rw [View.canon_unit_zero hz0]
  simp only [View.ld_unit_zero (S := S2000x256) hz0, View.ld_unit_zero (S := S256x256) hz0, View.ld_unit_zero (S := S1x256) hz0]
  obtain ⟨e0, e1, e2, e3, e4, e5, e6, e7⟩ := idx_facts0 t
  have hN : t.val < 50 := lt_of_lt_of_eq t.isLt N_0
  funext j
  show k0_pay1 (F := Ideal) (iblk0 V c 0 t) (iblk0 V c 1 t) (iblk0 V c 2 t) j
      = Spec.sage256 (V c main_v22) (V c main_v24) (V c main_v25) (((cfg0.win 3).blk t).view.emb j)
  refine block0_eq (V c main_v22) (V c main_v24) (V c main_v25) _ _ _ t.val hN (fun p k => ?_) (fun y => ?_) (fun y => ?_) j _ ?_ ?_
  · show V c main_v22 (((cfg0.win 0).blk t).view.emb (ix2 p k)) = V c main_v22 _
    refine congrArg (V c main_v22) (funext fun a => Fin.ext ?_)
    match a with
    | ⟨0, _⟩ => show win0_0.index t (0 : Fin 2) * 2000 + 1 * p.val = t.val * 2000 + p.val; rw [e0]; omega
    | ⟨1, _⟩ => show win0_0.index t (1 : Fin 2) * 256 + 1 * k.val = k.val; rw [e1]; omega
  · show V c main_v24 (((cfg0.win 1).blk t).view.emb y) = V c main_v24 y
    refine congrArg (V c main_v24) (funext fun a => Fin.ext ?_)
    match a with
    | ⟨0, _⟩ => show win0_1.index t (0 : Fin 2) * 256 + 1 * (y 0).val = (y 0).val; rw [e2]; omega
    | ⟨1, _⟩ => show win0_1.index t (1 : Fin 2) * 256 + 1 * (y 1).val = (y 1).val; rw [e3]; omega
  · show V c main_v25 (((cfg0.win 2).blk t).view.emb y) = V c main_v25 y
    refine congrArg (V c main_v25) (funext fun a => Fin.ext ?_)
    match a with
    | ⟨0, _⟩ => show win0_2.index t (0 : Fin 2) * 1 + 1 * (y 0).val = (y 0).val; rw [e4]; omega
    | ⟨1, _⟩ => show win0_2.index t (1 : Fin 2) * 256 + 1 * (y 1).val = (y 1).val; rw [e5]; omega
  · show win0_3.index t (0 : Fin 2) * 2000 + 1 * (j 0).val = t.val * 2000 + (j 0).val; rw [e6]; omega
  · show win0_3.index t (1 : Fin 2) * 256 + 1 * (j 1).val = (j 1).val; rw [e7]; omega

/-- An index of the output array is in point `t`'s block iff each coordinate is in the block's range on its axis. -/
theorem mem_blk0 (t : Fin cfg0.N) (i : S100000x256.Idx) :
    i ∈ ((cfg0.win 3).blk t).view.set
      ↔ ∀ a : Fin 2, win0_3.index t a * S2000x256.size a ≤ (i a).val ∧ (i a).val < win0_3.index t a * S2000x256.size a + S2000x256.size a := by
  show i ∈ ((View.whole main_v26).slice (win0_3.rect t)).set ↔ _
  rw [View.set_slice_whole, Rect.mem_set_unit]
  exact Iff.rfl

/-- Every row of the output is in the block of the point `row / 2000`. -/
theorem cover0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hlt : (i 0).val / 2000 < cfg0.N := by rw [show cfg0.N = 50 from N_0]; omega
  refine ⟨⟨(i 0).val / 2000, hlt⟩, flush0_3 _, ?_⟩
  rw [mem_blk0]
  obtain ⟨-, -, -, -, -, -, e6, e7⟩ := idx_facts0 ⟨(i 0).val / 2000, hlt⟩
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hlt⟩ (1 : Fin 2) * 256 ≤ (i 1).val ∧ (i 1).val < win0_3.index ⟨(i 0).val / 2000, hlt⟩ (1 : Fin 2) * 256 + 256
    rw [e7]; omega

/-- After the launch the output array is the whole-array function of the arrays the launch found. -/
theorem final0 (c : Dev nD) :
    (dat0 V c).arrAt 3 cfg0.N = Spec.sage256 (V c main_v22) (V c main_v24) (V c main_v25) :=
  (dat0 V c).arrAt_eq_of_cover 3 (Spec.sage256 (V c main_v22) (V c main_v24) (V c main_v25))
    (fun t _ => flushed0_eq V c t) cover0

end Cert.KernelIdeal.Hand

end
-- ==== Proof.Region1.lean ====
/-
  The second convolution layer's combine launch, read as one whole-array function.

  The launch walks 50 row blocks of 2000 rows.  At a block it multiplies the 2000×512 block of the left operand with
  the whole 512×256 right operand, adds the one-row bias to every row and applies the exponential linear unit; the
  result block is written back to the same rows of the output.  So after the launch the output array is, entry by
  entry, `elu (∑ k < 512, z[p,k] · w[k,q] + b[0,q])` of the arrays the launch found.
-/
import proofs.«100533_j71442486002111_1_alg».proof.Proof.Gen.KernelIdeal.Frame
import proofs.«100533_j71442486002111_1_alg».proof.Proof.SpecKer
import proofs.«100533_j71442486002111_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The body's arithmetic at one entry of the block: the row of the left block against the column of the right
    operand, plus the bias entry of that column, through the exponential linear unit.  (Changes of float format and
    reshapes to the same shape are the identity on extended reals.) -/
theorem pay1_apply (x0 : Vec Ideal S2000x512 .f32) (x1 : Vec Ideal S512x256 .f32) (x2 : Vec Ideal S1x256 .f32)
    (p : Fin 2000) (q : Fin 256) :
    k1_pay1 (F := Ideal) x0 x1 x2 (ix2 p q)
      = Spec.eluK ((∑ k : Fin 512, x0 (ix2 p k) * x1 (ix2 k q)) + x2 (ix2 (0 : Fin 1) q)) := by
  unfold k1_pay1
  simp only [shapeCast_self]
  show Spec.eluK (FloatOps.matmul (F := Ideal) dot_S2000x512_S512x256_S2000x256_1_0_0_1_n_n none (truncf .bf16 x0 Facts₀.bitsLt_bf16_f32)
      (truncf .bf16 x1 Facts₀.bitsLt_bf16_f32) (constant S2000x256 .f32 0x00000000#32) (ix2 p q)
        + broadcastTo S2000x256 x2 Facts₀.broadcasts_S1x256_S2000x256 (ix2 p q)) = _
  rw [Cert.Lib.PlainDot.matmul_zero_apply dot_S2000x512_S512x256_S2000x256_1_0_0_1_n_n rfl rfl (fun _ _ => rfl) (fun _ _ => rfl)
      (fun _ _ => rfl) (fun _ _ => rfl), broadcastTo_1b_ab_apply]
  rfl

/-- One entry of a block's result is the whole-array function at the entry's place in the array: the left block's
    rows are rows `2000·n + p` of the left operand, the other two operands are read whole. -/
theorem block1_eq (z : S100000x512.Idx → EReal) (w : S512x256.Idx → EReal) (b : S1x256.Idx → EReal)
    (x0 : Vec Ideal S2000x512 .f32) (x1 : Vec Ideal S512x256 .f32) (x2 : Vec Ideal S1x256 .f32) (n : Nat) (hn : n < 50)
    (h0 : ∀ (p : Fin 2000) (k : Fin 512), x0 (ix2 p k) = z (ix2 (⟨n * 2000 + p.val, by omega⟩ : Fin 100000) k))
    (h1 : ∀ j, x1 j = w j) (h2 : ∀ j, x2 j = b j) (y : S2000x256.Idx) (i : S100000x256.Idx)
    (hi0 : (i 0).val = n * 2000 + (y 0).val) (hi1 : (i 1).val = (y 1).val) :
    k1_pay1 (F := Ideal) x0 x1 x2 y = Spec.sage512 z w b i := by
  obtain ⟨p, q, rfl⟩ : ∃ (p : Fin 2000) (q : Fin 256), y = ix2 p q := ⟨y 0, y 1, eq_ix2 y⟩
  obtain ⟨p', q', rfl⟩ : ∃ (p' : Fin 100000) (q' : Fin 256), i = ix2 p' q' := ⟨i 0, i 1, eq_ix2 i⟩
  have hlt : n * 2000 + p.val < 100000 := by have := p.isLt; omega
  have ep : p' = ⟨n * 2000 + p.val, hlt⟩ := Fin.ext hi0
  have eq' : q' = q := Fin.ext hi1
  subst ep eq'
  rw [pay1_apply]
  show _ = Spec.eluK ((∑ k : Fin 512, z (ix2 _ k) * w (ix2 k q')) + b (ix2 (0 : Fin 1) q'))
  rw [h2]
  refine congrArg (fun s => Spec.eluK (s + b (ix2 (0 : Fin 1) q'))) ?_
  exact Finset.sum_congr rfl fun k _ => by rw [h0, h1]

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the left operand's and the output's block move down the rows with the
    point, the other two operands stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array function of the arrays the launch found. -/
theorem flushed1_eq (c : Dev nD) (t : Fin cfg1.N) :
    (dat1 V c).flushed 3 t
      = ((cfg1.win 3).blk t).view.read (Elt Ideal) (Spec.sage512 (V c main_v45) (V c main_v47) (V c main_v48)) := by
  show (cfg1.win 3).cut (grid1.coords t) ((dat1 V c).after 3 t) = _
  rw [after1_3]
  unfold out1_3
  rw [View.canon_unit_zero hz1]
  simp only [View.ld_unit_zero (S := S2000x512) hz1, View.ld_unit_zero (S := S512x256) hz1, View.ld_unit_zero (S := S1x256) hz1]
  obtain ⟨e0, e1, e2, e3, e4, e5, e6, e7⟩ := idx_facts1 t
  have hN : t.val < 50 := lt_of_lt_of_eq t.isLt N_1
  funext j
  show k1_pay1 (F := Ideal) (iblk1 V c 0 t) (iblk1 V c 1 t) (iblk1 V c 2 t) j
      = Spec.sage512 (V c main_v45) (V c main_v47) (V c main_v48) (((cfg1.win 3).blk t).view.emb j)
  refine block1_eq (V c main_v45) (V c main_v47) (V c main_v48) _ _ _ t.val hN (fun p k => ?_) (fun y => ?_) (fun y => ?_) j _ ?_ ?_
  · show V c main_v45 (((cfg1.win 0).blk t).view.emb (ix2 p k)) = V c main_v45 _
    refine congrArg (V c main_v45) (funext fun a => Fin.ext ?_)
    match a with
    | ⟨0, _⟩ => show win1_0.index t (0 : Fin 2) * 2000 + 1 * p.val = t.val * 2000 + p.val; rw [e0]; omega
    | ⟨1, _⟩ => show win1_0.index t (1 : Fin 2) * 512 + 1 * k.val = k.val; rw [e1]; omega
  · show V c main_v47 (((cfg1.win 1).blk t).view.emb y) = V c main_v47 y
    refine congrArg (V c main_v47) (funext fun a => Fin.ext ?_)
    match a with
    | ⟨0, _⟩ => show win1_1.index t (0 : Fin 2) * 512 + 1 * (y 0).val = (y 0).val; rw [e2]; omega
    | ⟨1, _⟩ => show win1_1.index t (1 : Fin 2) * 256 + 1 * (y 1).val = (y 1).val; rw [e3]; omega
  · show V c main_v48 (((cfg1.win 2).blk t).view.emb y) = V c main_v48 y
    refine congrArg (V c main_v48) (funext fun a => Fin.ext ?_)
    match a with
    | ⟨0, _⟩ => show win1_2.index t (0 : Fin 2) * 1 + 1 * (y 0).val = (y 0).val; rw [e4]; omega
    | ⟨1, _⟩ => show win1_2.index t (1 : Fin 2) * 256 + 1 * (y 1).val = (y 1).val; rw [e5]; omega
  · show win1_3.index t (0 : Fin 2) * 2000 + 1 * (j 0).val = t.val * 2000 + (j 0).val; rw [e6]; omega
  · show win1_3.index t (1 : Fin 2) * 256 + 1 * (j 1).val = (j 1).val; rw [e7]; omega

/-- An index of the output array is in point `t`'s block iff each coordinate is in the block's range on its axis. -/
theorem mem_blk1 (t : Fin cfg1.N) (i : S100000x256.Idx) :
    i ∈ ((cfg1.win 3).blk t).view.set
      ↔ ∀ a : Fin 2, win1_3.index t a * S2000x256.size a ≤ (i a).val ∧ (i a).val < win1_3.index t a * S2000x256.size a + S2000x256.size a := by
  show i ∈ ((View.whole main_v49).slice (win1_3.rect t)).set ↔ _
  rw [View.set_slice_whole, Rect.mem_set_unit]
  exact Iff.rfl

/-- Every row of the output is in the block of the point `row / 2000`. -/
theorem cover1 (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hlt : (i 0).val / 2000 < cfg1.N := by rw [show cfg1.N = 50 from N_1]; omega
  refine ⟨⟨(i 0).val / 2000, hlt⟩, flush1_3 _, ?_⟩
  rw [mem_blk1]
  obtain ⟨-, -, -, -, -, -, e6, e7⟩ := idx_facts1 ⟨(i 0).val / 2000, hlt⟩
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 256 ≤ (i 1).val ∧ (i 1).val < win1_3.index ⟨(i 0).val / 2000, hlt⟩ (1 : Fin 2) * 256 + 256
    rw [e7]; omega

/-- After the launch the output array is the whole-array function of the arrays the launch found. -/
theorem final1 (c : Dev nD) :
    (dat1 V c).arrAt 3 cfg1.N = Spec.sage512 (V c main_v45) (V c main_v47) (V c main_v48) :=
  (dat1 V c).arrAt_eq_of_cover 3 (Spec.sage512 (V c main_v45) (V c main_v47) (V c main_v48))
    (fun t _ => flushed1_eq V c t) cover1

end Cert.KernelIdeal.Hand

end
-- ==== Proof.Region2.lean ====
/-
  The head launch read as one function of whole arrays.

  Each grid point of the head launch loads a block of 2000 rows of the features together with the two weight
  matrices and the two biases, and stores `max (x · w1 + b1) 0 · w2 + b2` for those rows.  First the stored value
  is read at one entry as two nested finite sums; then the blocks written by the fifty points are seen to be the
  restrictions of one function of the whole arrays, and to cover every row, so the result array ends holding that
  function.
-/
import proofs.«100533_j71442486002111_1_alg».proof.Proof.Gen.KernelIdeal.Frame
import proofs.«100533_j71442486002111_1_alg».proof.Proof.SpecKer
import proofs.«100533_j71442486002111_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-! ## The stored value at one entry -/

/-- The first product, 2000 × 256 by 256 × 128 into the zero accumulator: entry `(p, j)` is the sum over `k` of
    the left operand at `(p, k)` times the right operand at `(k, j)`. -/
theorem mm1_apply (l : FVec Ideal S2000x256 .bf16) (r : FVec Ideal S256x128 .bf16) (p : Fin 2000) (j : Fin 128) :
    matmul dot_S2000x256_S256x128_S2000x128_1_0_0_1_n_n none l r (constant (F := Ideal) S2000x128 .f32 0x00000000#32) (ix2 p j)
      = ∑ k : Fin 256, l (ix2 p k) * r (ix2 k j) :=
  Cert.Lib.PlainDot.matmul_zero_apply dot_S2000x256_S256x128_S2000x128_1_0_0_1_n_n rfl rfl
    (fun j q => by simp [DotDims.lhsIdx, dot_S2000x256_S256x128_S2000x128_1_0_0_1_n_n]; rfl)
    (fun j q => by simp [DotDims.lhsIdx, dot_S2000x256_S256x128_S2000x128_1_0_0_1_n_n]; rfl)
    (fun j q => by simp [DotDims.rhsIdx, dot_S2000x256_S256x128_S2000x128_1_0_0_1_n_n]; rfl)
    (fun j q => by simp [DotDims.rhsIdx, dot_S2000x256_S256x128_S2000x128_1_0_0_1_n_n]; rfl)
    none l r (ix2 p j)

/-- The second product, 2000 × 128 by 128 × 1 into the zero accumulator. -/
theorem mm2_apply (l : FVec Ideal S2000x128 .bf16) (r : FVec Ideal S128x1 .bf16) (p : Fin 2000) (q : Fin 1) :
    matmul dot_S2000x128_S128x1_S2000x1_1_0_0_1_n_n none l r (constant (F := Ideal) S2000x1 .f32 0x00000000#32) (ix2 p q)
      = ∑ j : Fin 128, l (ix2 p j) * r (ix2 j q) :=
  Cert.Lib.PlainDot.matmul_zero_apply dot_S2000x128_S128x1_S2000x1_1_0_0_1_n_n rfl rfl
    (fun j q => by simp [DotDims.lhsIdx, dot_S2000x128_S128x1_S2000x1_1_0_0_1_n_n]; rfl)
    (fun j q => by simp [DotDims.lhsIdx, dot_S2000x128_S128x1_S2000x1_1_0_0_1_n_n]; rfl)
    (fun j q => by simp [DotDims.rhsIdx, dot_S2000x128_S128x1_S2000x1_1_0_0_1_n_n]; rfl)
    (fun j q => by have h := idx2_lt1 j; simp [DotDims.rhsIdx, dot_S2000x128_S128x1_S2000x1_1_0_0_1_n_n]; omega)
    none l r (ix2 p q)

/-- The stored value at `(p, q)`: the hidden layer's 128 entries of row `p`, each cut off below at zero, against
    column `q` of the second weight matrix, plus the second bias.  The format changes and the reshapes to the
    same shape are the identity on extended reals. -/
theorem pay2_apply (x0 : Vec Ideal S2000x256 .f32) (x1 : Vec Ideal S256x128 .f32) (x2 : Vec Ideal S1x128 .f32)
    (x3 : Vec Ideal S128x1 .f32) (x4 : Vec Ideal S1x1 .f32) (p : Fin 2000) (q : Fin 1) :
    k2_pay1 (F := Ideal) x0 x1 x2 x3 x4 (ix2 p q)
      = (∑ j : Fin 128, max ((∑ k : Fin 256, x0 (ix2 p k) * x1 (ix2 k j)) + x2 (ix2 (0 : Fin 1) j)) (Ideal.ofBits .f32 0x00000000#32)
          * x3 (ix2 j q))
        + x4 (ix2 (0 : Fin 1) q) := by
  unfold k2_pay1
  simp only [shapeCast_self]
  rw [addf_apply, mm2_apply, broadcastTo_1b_ab_apply]
  refine congrArg₂ (· + ·) (Finset.sum_congr rfl fun j _ => ?_) rfl
  rw [truncf_apply, truncf_apply, maximumf_apply, addf_apply, mm1_apply, broadcastTo_1b_ab_apply, broadcast_apply]
  rfl

/-! ## From the blocks to the array -/

theorem zero_offsets : (![0, 0] : Fin 2 → Nat) = fun _ => 0 := funext fun a => by fin_cases a <;> rfl

/-- Where each window's block sits at grid point `t`: the features and the result move down one block of 2000
    rows per point, the weights and biases are one whole block each. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b)) (c : Dev nD)

/-- The features' block at point `t` is rows `2000 t … 2000 t + 1999` of the array. -/
theorem blk0_apply (t : Fin cfg2.N) (x : S2000x256.Idx) (i : S100000x256.Idx)
    (h0 : (i 0).val = 2000 * t.val + (x 0).val) (h1 : (i 1).val = (x 1).val) :
    (iblk2 V c 0 t : Vec Ideal S2000x256 .f32) x = (V c main_v49 : S100000x256.Idx → Elt Ideal .f32) i := by
  obtain ⟨e0, e1, -⟩ := block_index t
  unfold iblk2
  rw [View.read_apply]
  show V c main_v49 _ = V c main_v49 _
  congr 1
  funext a
  apply Fin.ext
  match a with
  | ⟨0, _⟩ => show win2_0.index t 0 * 2000 + 1 * (x 0).val = (i 0).val; rw [e0, h0]; omega
  | ⟨1, _⟩ => show win2_0.index t 1 * 256 + 1 * (x 1).val = (i 1).val; rw [e1, h1]; omega

/-- The first weight matrix's block at any point is the whole matrix. -/
theorem blk1_apply (t : Fin cfg2.N) (x : S256x128.Idx) :
    (iblk2 V c 1 t : Vec Ideal S256x128 .f32) x = (V c main_v50 : S256x128.Idx → Elt Ideal .f32) x := by
  obtain ⟨-, -, e0, e1, -⟩ := block_index t
  unfold iblk2
  rw [View.read_apply]
  show V c main_v50 _ = V c main_v50 _
  congr 1
  funext a
  apply Fin.ext
  match a with
  | ⟨0, _⟩ => show win2_1.index t 0 * 256 + 1 * (x 0).val = (x 0).val; rw [e0]; omega
  | ⟨1, _⟩ => show win2_1.index t 1 * 128 + 1 * (x 1).val = (x 1).val; rw [e1]; omega

/-- The first bias row's block at any point is the whole row. -/
theorem blk2_apply (t : Fin cfg2.N) (x : S1x128.Idx) :
    (iblk2 V c 2 t : Vec Ideal S1x128 .f32) x = (V c main_v52 : S1x128.Idx → Elt Ideal .f32) x := by
  obtain ⟨-, -, -, -, e0, e1, -⟩ := block_index t
  unfold iblk2
  rw [View.read_apply]
  show V c main_v52 _ = V c main_v52 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The second weight column's block at any point is the whole column. -/
theorem blk3_apply (t : Fin cfg2.N) (x : S128x1.Idx) :
    (iblk2 V c 3 t : Vec Ideal S128x1 .f32) x = (V c main_v51 : S128x1.Idx → Elt Ideal .f32) x := by
  obtain ⟨-, -, -, -, -, -, e0, e1, -⟩ := block_index t
  unfold iblk2
  rw [View.read_apply]
  show V c main_v51 _ = V c main_v51 _
  congr 1
  funext a
  apply Fin.ext
  match a with
  | ⟨0, _⟩ => show win2_3.index t 0 * 128 + 1 * (x 0).val = (x 0).val; rw [e0]; omega
  | ⟨1, _⟩ => show win2_3.index t 1 * 1 + 1 * (x 1).val = (x 1).val; rw [e1]; omega

/-- The second bias' block at any point is the one entry. -/
theorem blk4_apply (t : Fin cfg2.N) (x : S1x1.Idx) :
    (iblk2 V c 4 t : Vec Ideal S1x1 .f32) x = (V c main_v53 : S1x1.Idx → Elt Ideal .f32) x := by
  obtain ⟨-, -, -, -, -, -, -, -, e0, e1, -⟩ := block_index t
  unfold iblk2
  rw [View.read_apply]
  show V c main_v53 _ = V c main_v53 _
  congr 1
  funext a
  apply Fin.ext
  match a with
  | ⟨0, _⟩ => show win2_4.index t 0 * 1 + 1 * (x 0).val = (x 0).val; rw [e0]; omega
  | ⟨1, _⟩ => show win2_4.index t 1 * 1 + 1 * (x 1).val = (x 1).val; rw [e1]; omega

/-- The nested sums over five blocks that are, where the sums read them, the whole arrays `a0 … a4` — the first
    at row `i 0` — are the head of the whole arrays at `i`. -/
theorem head_of_blocks (x0 : Vec Ideal S2000x256 .f32) (x1 : Vec Ideal S256x128 .f32) (x2 : Vec Ideal S1x128 .f32)
    (x3 : Vec Ideal S128x1 .f32) (x4 : Vec Ideal S1x1 .f32)
    (a0 : FVec Ideal S100000x256 .f32) (a1 : FVec Ideal S256x128 .f32) (a2 : FVec Ideal S1x128 .f32)
    (a3 : FVec Ideal S128x1 .f32) (a4 : FVec Ideal S1x1 .f32)
    (p : Fin 2000) (q : Fin 1) (i : S100000x1.Idx) (P : Fin 100000) (hP : P = i 0)
    (e0 : ∀ k : Fin 256, x0 (ix2 p k) = a0 (ix2 P k)) (e1 : ∀ x, x1 x = a1 x) (e2 : ∀ x, x2 x = a2 x)
    (e3 : ∀ x, x3 x = a3 x) (e4 : ∀ x, x4 x = a4 x) :
    (∑ j : Fin 128, max ((∑ k : Fin 256, x0 (ix2 p k) * x1 (ix2 k j)) + x2 (ix2 (0 : Fin 1) j)) (Ideal.ofBits .f32 0x00000000#32)
        * x3 (ix2 j q))
      + x4 (ix2 (0 : Fin 1) q)
      = Spec.headK a0 a1 a2 a3 a4 i := by
  have hq : q = i 1 := Fin.ext (by have h1 := idx2_lt1 (n0 := 100000) (n1 := 1) i; have h2 := q.isLt; omega)
  subst hP
  unfold Spec.headK
  dsimp only
  rw [← hq]
  refine congrArg₂ (· + ·) (Finset.sum_congr rfl fun j _ => ?_) (e4 _)
  refine congrArg₂ (· * ·) (congrArg (max · _) (congrArg₂ (· + ·) (Finset.sum_congr rfl fun k _ => ?_) (e2 _))) (e3 _)
  exact congrArg₂ (· * ·) (e0 k) (e1 _)

/-- What grid point `t` writes back is block `t` of the head of the whole arrays. -/
theorem flushed_eq (t : Fin cfg2.N) :
    (dat2 (F := Ideal) V c).flushed 5 t
      = ((cfg2.win 5).blk t).view.read (Elt Ideal)
          (Spec.headK (V c main_v49) (V c main_v50) (V c main_v52) (V c main_v51) (V c main_v53)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x128) zero_offsets,
    View.ld_unit_zero (S := S1x128) zero_offsets, View.ld_unit_zero (S := S128x1) zero_offsets,
    View.ld_unit_zero (S := S1x1) zero_offsets]
  funext y
  obtain ⟨p, q, rfl⟩ : ∃ (p : Fin 2000) (q : Fin 1), y = ix2 p q := ⟨y 0, y 1, eq_ix2 y⟩
  rw [View.read_apply]
  show k2_pay1 (F := Ideal) (iblk2 V c 0 t) (iblk2 V c 1 t) (iblk2 V c 2 t) (iblk2 V c 3 t) (iblk2 V c 4 t) (ix2 p q) = _
  obtain ⟨-, -, -, -, -, -, -, -, -, -, e0, -⟩ := block_index t
  refine (pay2_apply _ _ _ _ _ p q).trans ?_
  refine head_of_blocks _ _ _ _ _ (V c main_v49) (V c main_v50) (V c main_v52) (V c main_v51) (V c main_v53) p q
    (((View.whole main_v54).slice ((win2 5).rect t)).emb (ix2 p q)) _ rfl (fun k => blk0_apply V c t _ _ ?_ rfl)
    (blk1_apply V c t) (blk2_apply V c t) (blk3_apply V c t) (blk4_apply V c t)
  show win2_5.index t 0 * 2000 + 1 * p.val = 2000 * t.val + p.val
  rw [e0]; omega

/-- An index of the result array is in point `t`'s block iff each coordinate is in the block's range. -/
theorem mem_block (t : Fin cfg2.N) (i : S100000x1.Idx) :
    i ∈ ((cfg2.win 5).blk t).view.set
      ↔ ∀ a : Fin 2, win2_5.index t a * S2000x1.size a ≤ (i a).val ∧ (i a).val < win2_5.index t a * S2000x1.size a + S2000x1.size a := by
  show i ∈ ((View.whole main_v54).slice (win2_5.rect t)).set ↔ _
  rw [View.set_slice_whole, Rect.mem_set_unit]
  exact Iff.rfl

/-- The result array after the launch is the head of the whole arrays: every point writes its block back, and row
    `r` lies in the block of point `r / 2000`. -/
theorem final2 :
    (dat2 (F := Ideal) V c).arrAt 5 cfg2.N
      = Spec.headK (V c main_v49) (V c main_v50) (V c main_v52) (V c main_v51) (V c main_v53) :=
  (dat2 V c).arrAt_eq_of_cover 5 _ (fun t _ => flushed_eq V c t) fun i => by
    have hN : grid2.N = 50 := N_2
    have hi0 : (i 0).val < 100000 := idx2_lt0 (n0 := 100000) (n1 := 1) i
    have hi1 : (i 1).val < 1 := idx2_lt1 (n0 := 100000) (n1 := 1) i
    have ht : (i 0).val / 2000 < cfg2.N := by show _ < grid2.N; rw [hN]; omega
    obtain ⟨-, -, -, -, -, -, -, -, -, -, e0, e1⟩ := block_index ⟨(i 0).val / 2000, ht⟩
    refine ⟨⟨(i 0).val / 2000, ht⟩, flush2_5 _, ?_⟩
    rw [mem_block]
    intro a
    match a with
    | ⟨0, _⟩ =>
      show win2_5.index ⟨(i 0).val / 2000, ht⟩ 0 * 2000 ≤ (i 0).val ∧ (i 0).val < win2_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win2_5.index ⟨(i 0).val / 2000, ht⟩ 1 * 1 ≤ (i 1).val ∧ (i 1).val < win2_5.index ⟨(i 0).val / 2000, ht⟩ 1 * 1 + 1
      rw [e1]; omega

end

end Cert.KernelIdeal.Hand

end
-- ==== Proof.KerValue.lean ====
/-
  The kernel program's result as one term of its argument arrays.

  The buffer contents at the program's segment boundaries are a fold: a host stretch applies its operations, a launch
  replaces its output array by what its write-backs leave.  Reading the fold from the launch memory forward: the first
  launch's output is the first convolution layer of the arguments, the second launch's the second layer of that, the
  third's the head of that, and the last host stretch flattens it.
-/
import proofs.«100533_j71442486002111_1_alg».proof.Proof.HostStretches
import proofs.«100533_j71442486002111_1_alg».proof.Proof.Region0
import proofs.«100533_j71442486002111_1_alg».proof.Proof.Region1
import proofs.«100533_j71442486002111_1_alg».proof.Proof.Region2

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch and the first launch -/

/-- The first launch's output: the first convolution layer. -/
theorem W2_h1 : W2 m ρ c (Proc.devRef .tc main_v26)
    = Spec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  calc W2 m ρ c (Proc.devRef .tc main_v26)
      = (dat0 (V1 m ρ) c).arrAt 3 cfg0.N := W2_arr m ρ c 3
    _ = Spec.sage256 (V1 m ρ c main_v22) (V1 m ρ c main_v24) (V1 m ρ c main_v25) := final0 (V1 m ρ) c
    _ = Spec.sage256 (Spec.z1 (m ((c.tc : Thread nD τ).loc main_arg0)) (m ((c.tc : Thread nD τ).loc main_arg1))) (Spec.w1T (m ((c.tc : Thread nD τ).loc main_arg2)) (m ((c.tc : Thread nD τ).loc main_arg4))) (Spec.row256 (m ((c.tc : Thread nD τ).loc main_arg3))) := by
          rw [show V1 m ρ c main_v22 = Spec.z1 (m ((c.tc : Thread nD τ).loc main_arg0)) (m ((c.tc : Thread nD τ).loc main_arg1)) from s0_z (W0 m ρ c),
            show V1 m ρ c main_v24 = Spec.w1T (m ((c.tc : Thread nD τ).loc main_arg2)) (m ((c.tc : Thread nD τ).loc main_arg4)) from s0_w (W0 m ρ c),
            show V1 m ρ c main_v25 = Spec.row256 (m ((c.tc : Thread nD τ).loc main_arg3)) from s0_b (W0 m ρ c)]
    _ = _ := rfl

/-- The edge list's rows, computed before the first launch, are still there after it. -/
theorem W2_src : W2 m ρ c (Proc.devRef .tc main_v1) = Spec.srcRow (m ((c.tc : Thread nD τ).loc main_arg1)) :=
  (W2_of_ne m ρ c main_v1 (by decide)).trans (s0_src (W0 m ρ c))
theorem W2_dst : W2 m ρ c (Proc.devRef .tc main_v3) = Spec.dstRow (m ((c.tc : Thread nD τ).loc main_arg1)) :=
  (W2_of_ne m ρ c main_v3 (by decide)).trans (s0_dst (W0 m ρ c))
theorem W2_arg5 : W2 m ρ c (Proc.devRef .tc main_arg5) = (m ((c.tc : Thread nD τ).loc main_arg5)) :=
  (W2_of_ne m ρ c main_arg5 (by decide)).trans (s0_arg5 (W0 m ρ c))
theorem W2_arg6 : W2 m ρ c (Proc.devRef .tc main_arg6) = (m ((c.tc : Thread nD τ).loc main_arg6)) :=
  (W2_of_ne m ρ c main_arg6 (by decide)).trans (s0_arg6 (W0 m ρ c))
theorem W2_arg7 : W2 m ρ c (Proc.devRef .tc main_arg7) = (m ((c.tc : Thread nD τ).loc main_arg7)) :=
  (W2_of_ne m ρ c main_arg7 (by decide)).trans (s0_arg7 (W0 m ρ c))
theorem W2_arg8 : W2 m ρ c (Proc.devRef .tc main_arg8) = (m ((c.tc : Thread nD τ).loc main_arg8)) :=
  (W2_of_ne m ρ c main_arg8 (by decide)).trans (s0_arg8 (W0 m ρ c))
theorem W2_arg9 : W2 m ρ c (Proc.devRef .tc main_arg9) = (m ((c.tc : Thread nD τ).loc main_arg9)) :=
  (W2_of_ne m ρ c main_arg9 (by decide)).trans (s0_arg9 (W0 m ρ c))
theorem W2_arg10 : W2 m ρ c (Proc.devRef .tc main_arg10) = (m ((c.tc : Thread nD τ).loc main_arg10)) :=
  (W2_of_ne m ρ c main_arg10 (by decide)).trans (s0_arg10 (W0 m ρ c))
theorem W2_arg11 : W2 m ρ c (Proc.devRef .tc main_arg11) = (m ((c.tc : Thread nD τ).loc main_arg11)) :=
  (W2_of_ne m ρ c main_arg11 (by decide)).trans (s0_arg11 (W0 m ρ c))

/-! ## After the second host stretch and the second launch -/

/-- The second launch's output: the second convolution layer of the first. -/
theorem W4_h2 : W4 m ρ c (Proc.devRef .tc main_v49)
    = Spec.h2 (Spec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7)) :=
  calc W4 m ρ c (Proc.devRef .tc main_v49)
      = (dat1 (V3 m ρ) c).arrAt 3 cfg1.N := W4_arr m ρ c 3
    _ = Spec.sage512 (V3 m ρ c main_v45) (V3 m ρ c main_v47) (V3 m ρ c main_v48) := final1 (V3 m ρ) c
    _ = Spec.sage512 (Spec.z2 (W2 m ρ c (Proc.devRef .tc main_v26)) (m ((c.tc : Thread nD τ).loc main_arg1)))
          (Spec.w2T (W2 m ρ c (Proc.devRef .tc main_arg5)) (W2 m ρ c (Proc.devRef .tc main_arg7)))
          (Spec.row256 (W2 m ρ c (Proc.devRef .tc main_arg6))) := by
          rw [show V3 m ρ c main_v45 = Spec.z2 (W2 m ρ c (Proc.devRef .tc main_v26)) (m ((c.tc : Thread nD τ).loc main_arg1))
              from s1_z (W2 m ρ c) (m ((c.tc : Thread nD τ).loc main_arg1)) (W2_src m ρ c) (W2_dst m ρ c),
            show V3 m ρ c main_v47 = Spec.w2T (W2 m ρ c (Proc.devRef .tc main_arg5)) (W2 m ρ c (Proc.devRef .tc main_arg7)) from s1_w (W2 m ρ c),
            show V3 m ρ c main_v48 = Spec.row256 (W2 m ρ c (Proc.devRef .tc main_arg6)) from s1_b (W2 m ρ c)]
    _ = _ := by rw [W2_h1, W2_arg5, W2_arg6, W2_arg7]; rfl

theorem W4_arg8 : W4 m ρ c (Proc.devRef .tc main_arg8) = (m ((c.tc : Thread nD τ).loc main_arg8)) :=
  (W4_of_ne m ρ c main_arg8 (by decide)).trans ((s1_arg8 (W2 m ρ c)).trans (W2_arg8 m ρ c))
theorem W4_arg9 : W4 m ρ c (Proc.devRef .tc main_arg9) = (m ((c.tc : Thread nD τ).loc main_arg9)) :=
  (W4_of_ne m ρ c main_arg9 (by decide)).trans ((s1_arg9 (W2 m ρ c)).trans (W2_arg9 m ρ c))
theorem W4_arg10 : W4 m ρ c (Proc.devRef .tc main_arg10) = (m ((c.tc : Thread nD τ).loc main_arg10)) :=
  (W4_of_ne m ρ c main_arg10 (by decide)).trans ((s1_arg10 (W2 m ρ c)).trans (W2_arg10 m ρ c))
theorem W4_arg11 : W4 m ρ c (Proc.devRef .tc main_arg11) = (m ((c.tc : Thread nD τ).loc main_arg11)) :=
  (W4_of_ne m ρ c main_arg11 (by decide)).trans ((s1_arg11 (W2 m ρ c)).trans (W2_arg11 m ρ c))

/-! ## After the third host stretch, the third launch and the last stretch -/

/-- The result vector at the end of the program. -/
theorem W7_out : W7 m ρ c (Proc.devRef .tc main_v55)
    = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  calc W7 m ρ c (Proc.devRef .tc main_v55)
      = shapeCast S100000 (W6 m ρ c (Proc.devRef .tc main_v54)) Facts₀.shapeCasts_S100000x1_S100000 := s3_out (W6 m ρ c)
    _ = shapeCast S100000 ((dat2 (V5 m ρ) c).arrAt 5 cfg2.N) Facts₀.shapeCasts_S100000x1_S100000 := by rw [W6_arr m ρ c 5]
    _ = shapeCast S100000 (Spec.headK (V5 m ρ c main_v49) (V5 m ρ c main_v50) (V5 m ρ c main_v52) (V5 m ρ c main_v51) (V5 m ρ c main_v53))
          Facts₀.shapeCasts_S100000x1_S100000 := by rw [final2 (V5 m ρ) c]
    _ = shapeCast S100000 (Spec.headK (W4 m ρ c (Proc.devRef .tc main_v49))
          (transpose S256x128 [1, 0] (W4 m ρ c (Proc.devRef .tc main_arg8)) Facts₀.transposes_S128x256_S256x128_1_0)
          (shapeCast S1x128 (W4 m ρ c (Proc.devRef .tc main_arg9)) Facts₀.shapeCasts_S128_S1x128)
          (transpose S128x1 [1, 0] (W4 m ρ c (Proc.devRef .tc main_arg10)) Facts₀.transposes_S1x128_S128x1_1_0)
          (shapeCast S1x1 (W4 m ρ c (Proc.devRef .tc main_arg11)) Facts₀.shapeCasts_S1_S1x1))
          Facts₀.shapeCasts_S100000x1_S100000 := by
          rw [show V5 m ρ c main_v49 = W4 m ρ c (Proc.devRef .tc main_v49) from s2_h (W4 m ρ c),
            show V5 m ρ c main_v50 = transpose S256x128 [1, 0] (W4 m ρ c (Proc.devRef .tc main_arg8)) Facts₀.transposes_S128x256_S256x128_1_0
              from s2_w1 (W4 m ρ c),
            show V5 m ρ c main_v52 = shapeCast S1x128 (W4 m ρ c (Proc.devRef .tc main_arg9)) Facts₀.shapeCasts_S128_S1x128
              from s2_b1 (W4 m ρ c),
            show V5 m ρ c main_v51 = transpose S128x1 [1, 0] (W4 m ρ c (Proc.devRef .tc main_arg10)) Facts₀.transposes_S1x128_S128x1_1_0
              from s2_w2 (W4 m ρ c),
            show V5 m ρ c main_v53 = shapeCast S1x1 (W4 m ρ c (Proc.devRef .tc main_arg11)) Facts₀.shapeCasts_S1_S1x1
              from s2_b2 (W4 m ρ c)]
    _ = _ := by rw [W4_h2, W4_arg8, W4_arg9, W4_arg10, W4_arg11]; rfl

end Cert.KernelIdeal.Hand

end
-- ==== Proof.RefRun.lean ====
/-
  The reference program as a straight line of tensor operations, and what its run leaves in memory.

  The program is two mean-aggregating graph convolutions and a two-layer head.  Its entry function
  calls three small helper functions (the exponential linear unit, twice, and the rectifier, once; the
  exponential linear unit itself calls two `select` wrappers).  A call runs the callee's operations on
  the caller's values, so the whole program is one list of 112 operations: the entry function's own,
  with each helper's operations written out at the place of its call over that call's own values.

  The list is given in two consecutive pieces, as the entry function itself is.  From any starting
  memory every weakly fair execution ends, and each tensor value then holds what folding the list over
  the starting contents gives (`after`).
-/
import proofs.«100533_j71442486002111_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

/-- The first piece, 74 operations.  The edge list is cut into its source row and its destination row; a
    negative source index is counted from the end; the node features are gathered along the sources and
    summed into the destinations, the edges into each node are counted (at least one), and the quotient
    is the mean over a node's incoming edges.  The first convolution is
    `elu (mean · W₁ₗᵀ + b₁ + x · W₁ᵣᵀ)`, the exponential linear unit spelt as two comparisons with zero,
    a `select` that zeroes the positive side before `e^a - 1`, a multiplication by one and the final
    `select`.  Then the same aggregation starts again on the convolution's result: gather, sum, count,
    and the count repeated along the 256 features. -/
abbrev ops0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_1 (constant S_ .f32 0x3F800000#32),
    unary main_cst_1 main_v14 (broadcastInDim S600000x1 ![] bcast_S_S600000x1 : (⟨S_, .f32⟩ : BufTy).Contents (Elt F) → (⟨S600000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_v13 main_v20 main_v21 (Host.divf : (⟨S100000x128, .f32⟩ : BufTy).Contents (Elt F) → (⟨S100000x128, .f32⟩ : BufTy).Contents (Elt F) → (⟨S100000x128, .f32⟩ : BufTy).Contents (Elt F)),
    unary main_arg2 main_v22 ((transpose S128x256 [1, 0] · transposes_S256x128_S128x256_1_0) : (⟨S256x128, .f32⟩ : BufTy).Contents (Elt F) → (⟨S128x256, .f32⟩ : BufTy).Contents (Elt F)),
    binary main_v21 main_v22 main_v23 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    unary main_arg4 main_v27 ((transpose S128x256 [1, 0] · transposes_S256x128_S128x256_1_0) : (⟨S256x128, .f32⟩ : BufTy).Contents (Elt F) → (⟨S128x256, .f32⟩ : BufTy).Contents (Elt F)),
    binary main_arg0 main_v27 main_v28 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v26 main_v28 main_v29 (addf : (⟨S100000x256, .f32⟩ : BufTy).Contents (Elt F) → (⟨S100000x256, .f32⟩ : BufTy).Contents (Elt F) → (⟨S100000x256, .f32⟩ : BufTy).Contents (Elt F)),
    TRef.nullary main_call0.cst (constant S_ .f32 0x00000000#32),
    TRef.unary main_call0.cst main_call0.v0 (broadcastInDim S100000x256 ![] bcast_S_S100000x256),
    TRef.binary (.of main_v29 : TRef sig ⟨S100000x256, .f32⟩) main_call0.v0 main_call0.v1 (cmpf .ogt),
    TRef.nullary main_call0.cst_0 (constant S_ .f32 0x00000000#32),
    TRef.unary main_call0.cst_0 main_call0.v2 (broadcastInDim S100000x256 ![] bcast_S_S100000x256),
    TRef.binary (.of main_v29 : TRef sig ⟨S100000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x256 ![] bcast_S_S100000x256),
    TRef.ternary main_call0.v3 main_call0.call0.v1 (.of main_v29 : TRef sig ⟨S100000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x256 ![] bcast_S_S100000x256),
    TRef.binary main_call0.v6 main_call0.v5 main_call0.v7 mulf,
    TRef.ternary main_call0.v1 (.of main_v29 : TRef sig ⟨S100000x256, .f32⟩) main_call0.v7 main_call0.call1.v0 select,
    nullary main_c_4 (constantI S_ 32 0#32),
    unary main_c_4 main_v31 (broadcastInDim S600000 ![] bcast_S_S600000 : (⟨S_, .i32⟩ : BufTy).Contents (Elt F) → (⟨S600000, .i32⟩ : BufTy).Contents (Elt F)),
    binary main_v1 main_v31 main_v32 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v33 (broadcastInDim S600000 ![] bcast_S_S600000 : (⟨S_, .i32⟩ : BufTy).Contents (Elt F) → (⟨S600000, .i32⟩ : BufTy).Contents (Elt F)),
    binary main_v1 main_v33 main_v34 (addi : (⟨S600000, .i32⟩ : BufTy).Contents (Elt F) → (⟨S600000, .i32⟩ : BufTy).Contents (Elt F) → (⟨S600000, .i32⟩ : BufTy).Contents (Elt F)),
    ternary main_v32 main_v34 main_v1 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v35 main_v36 (broadcastInDim S600000x1 ![0] bcast_S600000_S600000x1_0 : (⟨S600000, .i32⟩ : BufTy).Contents (Elt F) → (⟨S600000x1, .i32⟩ : BufTy).Contents (Elt F)),
    binary main_v30 main_v36 main_v37 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)),
    nullary main_cst_6 (constant S_ .f32 0x00000000#32),
    unary main_cst_6 main_v38 (broadcastInDim S100000x256 ![] bcast_S_S100000x256 : (⟨S_, .f32⟩ : BufTy).Contents (Elt F) → (⟨S100000x256, .f32⟩ : BufTy).Contents (Elt F)),
    unary main_v3 main_v39 (broadcastInDim S600000x1 ![0] bcast_S600000_S600000x1_0 : (⟨S600000, .i32⟩ : BufTy).Contents (Elt F) → (⟨S600000x1, .i32⟩ : BufTy).Contents (Elt F)),
    ternary main_v38 main_v39 main_v37 main_v40 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)),
    nullary main_cst_7 (constant S_ .f32 0x3F800000#32),
    unary main_cst_7 main_v41 (broadcastInDim S600000x1 ![] bcast_S_S600000x1 : (⟨S_, .f32⟩ : BufTy).Contents (Elt F) → (⟨S600000x1, .f32⟩ : BufTy).Contents (Elt F)),
    nullary main_cst_8 (constant S_ .f32 0x00000000#32),
    unary main_cst_8 main_v42 (broadcastInDim S100000x1 ![] bcast_S_S100000x1 : (⟨S_, .f32⟩ : BufTy).Contents (Elt F) → (⟨S100000x1, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    nullary main_cst_9 (constant S_ .f32 0x3F800000#32),
    unary main_cst_9 main_v45 (broadcastInDim S100000x1 ![] bcast_S_S100000x1 : (⟨S_, .f32⟩ : BufTy).Contents (Elt F) → (⟨S100000x1, .f32⟩ : BufTy).Contents (Elt F)),
    binary main_v44 main_v45 main_v46 (maximumf : (⟨S100000x1, .f32⟩ : BufTy).Contents (Elt F) → (⟨S100000x1, .f32⟩ : BufTy).Contents (Elt F) → (⟨S100000x1, .f32⟩ : BufTy).Contents (Elt F)),
    unary main_v46 main_v47 (broadcastInDim S100000x256 ![0, 1] bcast_S100000x1_S100000x256_0_1 : (⟨S100000x1, .f32⟩ : BufTy).Contents (Elt F) → (⟨S100000x256, .f32⟩ : BufTy).Contents (Elt F)) ]

/-- The second piece, 38 operations.  The sums are divided by the counts; the second convolution is
    `elu (mean · W₂ₗᵀ + b₂ + h · W₂ᵣᵀ)` with the exponential linear unit spelt as before; the head is
    `max (h · Wf₁ᵀ + bf₁) 0 · Wf₂ᵀ + bf₂`, the column of results read as a vector. -/
abbrev ops1 : List (HloOp τ sig (Elt F)) :=
  [ binary main_v40 main_v47 main_v48 (Host.divf : (⟨S100000x256, .f32⟩ : BufTy).Contents (Elt F) → (⟨S100000x256, .f32⟩ : BufTy).Contents (Elt F) → (⟨S100000x256, .f32⟩ : BufTy).Contents (Elt F)),
    unary main_arg5 main_v49 ((transpose S256x256 [1, 0] · transposes_S256x256_S256x256_1_0) : (⟨S256x256, .f32⟩ : BufTy).Contents (Elt F) → (⟨S256x256, .f32⟩ : BufTy).Contents (Elt F)),
    binary main_v48 main_v49 main_v50 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v51 (broadcastInDim S1x256 ![1] bcast_S256_S1x256_1 : (⟨S256, .f32⟩ : BufTy).Contents (Elt F) → (⟨S1x256, .f32⟩ : BufTy).Contents (Elt F)),
    unary main_v51 main_v52 (broadcastInDim S100000x256 ![0, 1] bcast_S1x256_S100000x256_0_1 : (⟨S1x256, .f32⟩ : BufTy).Contents (Elt F) → (⟨S100000x256, .f32⟩ : BufTy).Contents (Elt F)),
    binary main_v50 main_v52 main_v53 (addf : (⟨S100000x256, .f32⟩ : BufTy).Contents (Elt F) → (⟨S100000x256, .f32⟩ : BufTy).Contents (Elt F) → (⟨S100000x256, .f32⟩ : BufTy).Contents (Elt F)),
    unary main_arg7 main_v54 ((transpose S256x256 [1, 0] · transposes_S256x256_S256x256_1_0) : (⟨S256x256, .f32⟩ : BufTy).Contents (Elt F) → (⟨S256x256, .f32⟩ : BufTy).Contents (Elt F)),
    binary main_v30 main_v54 main_v55 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v53 main_v55 main_v56 (addf : (⟨S100000x256, .f32⟩ : BufTy).Contents (Elt F) → (⟨S100000x256, .f32⟩ : BufTy).Contents (Elt F) → (⟨S100000x256, .f32⟩ : BufTy).Contents (Elt F)),
    TRef.nullary main_call1.cst (constant S_ .f32 0x00000000#32),
    TRef.unary main_call1.cst main_call1.v0 (broadcastInDim S100000x256 ![] bcast_S_S100000x256),
    TRef.binary (.of main_v56 : TRef sig ⟨S100000x256, .f32⟩) main_call1.v0 main_call1.v1 (cmpf .ogt),
    TRef.nullary main_call1.cst_0 (constant S_ .f32 0x00000000#32),
    TRef.unary main_call1.cst_0 main_call1.v2 (broadcastInDim S100000x256 ![] bcast_S_S100000x256),
    TRef.binary (.of main_v56 : TRef sig ⟨S100000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x256 ![] bcast_S_S100000x256),
    TRef.ternary main_call1.v3 main_call1.call0.v1 (.of main_v56 : TRef sig ⟨S100000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x256 ![] bcast_S_S100000x256),
    TRef.binary main_call1.v6 main_call1.v5 main_call1.v7 mulf,
    TRef.ternary main_call1.v1 (.of main_v56 : TRef sig ⟨S100000x256, .f32⟩) main_call1.v7 main_call1.call1.v0 select,
    unary main_arg8 main_v58 ((transpose S256x128 [1, 0] · transposes_S128x256_S256x128_1_0) : (⟨S128x256, .f32⟩ : BufTy).Contents (Elt F) → (⟨S256x128, .f32⟩ : BufTy).Contents (Elt F)),
    binary main_v57 main_v58 main_v59 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v62 : TRef sig ⟨S100000x128, .f32⟩) main_call2.v0 main_call2.v1 maximumf,
    unary main_arg10 main_v64 ((transpose S128x1 [1, 0] · transposes_S1x128_S128x1_1_0) : (⟨S1x128, .f32⟩ : BufTy).Contents (Elt F) → (⟨S128x1, .f32⟩ : BufTy).Contents (Elt F)),
    binary main_v63 main_v64 main_v65 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg11 main_v66 (broadcastInDim S1x1 ![1] bcast_S1_S1x1_1 : (⟨S1, .f32⟩ : BufTy).Contents (Elt F) → (⟨S1x1, .f32⟩ : BufTy).Contents (Elt F)),
    unary main_v66 main_v67 (broadcastInDim S100000x1 ![0, 1] bcast_S1x1_S100000x1_0_1 : (⟨S1x1, .f32⟩ : BufTy).Contents (Elt F) → (⟨S100000x1, .f32⟩ : BufTy).Contents (Elt F)),
    binary main_v65 main_v67 main_v68 (addf : (⟨S100000x1, .f32⟩ : BufTy).Contents (Elt F) → (⟨S100000x1, .f32⟩ : BufTy).Contents (Elt F) → (⟨S100000x1, .f32⟩ : BufTy).Contents (Elt F)),
    reshape main_v68 main_v69 rfl shapeCasts_S100000x1_S100000 ]

/-- All the operations, in order. -/
abbrev ops : List (HloOp τ sig (Elt F)) := ops0 ++ ops1

/-- Folding a concatenation is folding its first part and then its second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 4096 in
set_option maxHeartbeats 4000000 in
/-- The first piece of the entry function is its list: with the helpers' definitions opened at their
    calls, both sides are one chain of steps once sequencing is reassociated. -/
theorem part0_eq (c : Dev nD) : main_part0 (F := F) c = seq ops0 := by
  simp only [main_part0, fn_elu.body, fn_where.body, fn_where_0.body, seq, bind_assoc, pure_bind]
  rfl

set_option maxRecDepth 4096 in
set_option maxHeartbeats 4000000 in
/-- The second piece likewise. -/
theorem part1_eq (c : Dev nD) : main_part1 (F := F) c = seq ops1 := by
  simp only [main_part1, fn_elu.body, fn_where.body, fn_where_0.body, fn_relu.body, seq, bind_assoc, pure_bind]

/-- The entry function runs its two pieces in order, which is the concatenated list run as one. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the first piece touches tensor values of the device only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., unary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub ..⟩

/-- The same for the second piece. -/
theorem ops1_sub : (ops1 : List (HloOp τ sig (Elt F))).Forall fun op => op.bufs ⊆ tcRefs τ sig :=
  ⟨binary_bufs_sub .., unary_bufs_sub .., binary_bufs_sub .., unary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., reshape_bufs_sub ..⟩

theorem ops_sub : (ops : List (HloOp τ sig (Elt F))).Forall fun op => op.bufs ⊆ tcRefs τ sig :=
  List.forall_append.mpr ⟨ops0_sub, ops1_sub⟩

/-- Every operation determines its results. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.mp h).elim (ops0_fresh op) (ops1_fresh op)

/-- From any memory with zero counters, for any float values: every weakly fair execution of the
    program terminates, and in every final state each tensor value holds the fold of the operations
    over the starting contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.SpecRef.lean ====
/-
  What the reference program computes, as one term of its argument arrays, named piece by piece.

  The network is two mean-aggregating graph convolutions followed by a two-layer head.  For an edge list
  `e` (row 0 the source node of each edge, row 1 its destination) the mean aggregation of a feature
  array `x` puts at node `v` the sum of `x[src]` over the edges into `v`, divided by the number of
  those edges (at least one).  A convolution layer is `elu (mean · Wlᵀ + b + x · Wrᵀ)`; the head is
  `relu (h · Wf1ᵀ + bf1) · Wf2ᵀ + bf2`, flattened to a vector.
-/
import proofs.«100533_j71442486002111_1_alg».proof.Proof.Gen.ReferenceIdeal

noncomputable section

namespace Cert.ReferenceIdeal.Spec

open Idealize.ShloMosaic Cert.ReferenceIdeal Cert.ReferenceIdeal.Facts₀

variable {F : FTy → Type} [FloatOps F]

/-- The contents of a buffer of shape `S` and element type `φ`. -/
abbrev C (F : FTy → Type) [FloatOps F] (S : Shape) (φ : EltTy) : Type := (⟨S, φ⟩ : BufTy).Contents (Elt F)

/-- Row 0 of the edge list: each edge's source node. -/
def srcRow (e : C F S2x600000 .i32) : C F S600000 .i32 :=
  shapeCast S600000 (extractStridedSlice S1x600000 ![0, 0] e slices_S2x600000_S1x600000_0_0) shapeCasts_S1x600000_S600000

/-- Row 1 of the edge list: each edge's destination node. -/
def dstRow (e : C F S2x600000 .i32) : C F S600000 .i32 :=
  shapeCast S600000 (extractStridedSlice S1x600000 ![1, 0] e slices_S2x600000_S1x600000_1_0) shapeCasts_S1x600000_S600000

/-- The source nodes as a column of gather indices, a negative index counted from the end. -/
def srcCol (e : C F S2x600000 .i32) : C F S600000x1 .i32 :=
  broadcastInDim S600000x1 ![0] bcast_S600000_S600000x1_0
    (select (cmpi .slt (srcRow e) (broadcastInDim S600000 ![] bcast_S_S600000 (constantI S_ 32 0#32)))
      (addi (srcRow e) (broadcastInDim S600000 ![] bcast_S_S600000 (constantI S_ 32 100000#32)))
      (srcRow e))

/-- The destination nodes as a column of scatter indices. -/
def dstCol (e : C F S2x600000 .i32) : C F S600000x1 .i32 :=
  broadcastInDim S600000x1 ![0] bcast_S600000_S600000x1_0 (dstRow e)

/-- The number of edges into each node, at least one. -/
def degree (e : C F S2x600000 .i32) : C F S100000x1 .f32 :=
  maximumf
    (Host.scatterAdd scatter_S100000x1_S600000x1_S600000x1_1_0_0_1
      (broadcastInDim S100000x1 ![] bcast_S_S100000x1 (constant S_ .f32 0x00000000#32))
      (dstCol e)
      (broadcastInDim S600000x1 ![] bcast_S_S600000x1 (constant S_ .f32 0x3F800000#32)))
    (broadcastInDim S100000x1 ![] bcast_S_S100000x1 (constant S_ .f32 0x3F800000#32))

/-- Mean aggregation of 128 features per node. -/
def segMean128 (x : C F S100000x128 .f32) (e : C F S2x600000 .i32) : C F S100000x128 .f32 :=
  Host.divf
    (Host.scatterAdd scatter_S100000x128_S600000x1_S600000x128_1_0_0_1
      (broadcastInDim S100000x128 ![] bcast_S_S100000x128 (constant S_ .f32 0x00000000#32))
      (dstCol e)
      (Host.gather gather_S100000x128_S600000x1_S600000x128_1_0_n_n_0_1_1128 x (srcCol e)))
    (broadcastInDim S100000x128 ![0, 1] bcast_S100000x1_S100000x128_0_1 (degree e))

/-- Mean aggregation of 256 features per node. -/
def segMean256 (h : C F S100000x256 .f32) (e : C F S2x600000 .i32) : C F S100000x256 .f32 :=
  Host.divf
    (Host.scatterAdd scatter_S100000x256_S600000x1_S600000x256_1_0_0_1
      (broadcastInDim S100000x256 ![] bcast_S_S100000x256 (constant S_ .f32 0x00000000#32))
      (dstCol e)
      (Host.gather gather_S100000x256_S600000x1_S600000x256_1_0_n_n_0_1_1256 h (srcCol e)))
    (broadcastInDim S100000x256 ![0, 1] bcast_S100000x1_S100000x256_0_1 (degree e))

/-- The exponential linear unit as the reference spells it: `a` where `a > 0`, else `1 · (e^a' - 1)` with
    `a'` the argument made harmless (zero) on the positive side. -/
def elu (a : C F S100000x256 .f32) : C F S100000x256 .f32 :=
  select (cmpf .ogt a (broadcastInDim S100000x256 ![] bcast_S_S100000x256 (constant S_ .f32 0x00000000#32))) a
    (mulf (broadcastInDim S100000x256 ![] bcast_S_S100000x256 (constant S_ .f32 0x3F800000#32))
      (Host.expm1
        (select (cmpf .ogt a (broadcastInDim S100000x256 ![] bcast_S_S100000x256 (constant S_ .f32 0x00000000#32)))
          (broadcastInDim S100000x256 ![] bcast_S_S100000x256 (id (constant S_ .f32 0x00000000#32))) a)))

/-- A bias vector of 256 entries, repeated on every row. -/
def bias256 (b : C F S256 .f32) : C F S100000x256 .f32 :=
  broadcastInDim S100000x256 ![0, 1] bcast_S1x256_S100000x256_0_1 (broadcastInDim S1x256 ![1] bcast_S256_S1x256_1 b)

/-- The first convolution layer. -/
def layer1 (x : C F S100000x128 .f32) (e : C F S2x600000 .i32) (Wl : C F S256x128 .f32) (b : C F S256 .f32)
    (Wr : C F S256x128 .f32) : C F S100000x256 .f32 :=
  elu (addf
    (addf
      (Host.dotGeneral dot_S100000x128_S128x256_S100000x256_1_0_0_1_n_n none (segMean128 x e)
        (transpose S128x256 [1, 0] Wl transposes_S256x128_S128x256_1_0))
      (bias256 b))
    (Host.dotGeneral dot_S100000x128_S128x256_S100000x256_1_0_0_1_n_n none x
      (transpose S128x256 [1, 0] Wr transposes_S256x128_S128x256_1_0)))

/-- The second convolution layer. -/
def layer2 (h : C F S100000x256 .f32) (e : C F S2x600000 .i32) (Wl : C F S256x256 .f32) (b : C F S256 .f32)
    (Wr : C F S256x256 .f32) : C F S100000x256 .f32 :=
  elu (addf
    (addf
      (Host.dotGeneral dot_S100000x256_S256x256_S100000x256_1_0_0_1_n_n none (segMean256 h e)
        (transpose S256x256 [1, 0] Wl transposes_S256x256_S256x256_1_0))
      (bias256 b))
    (Host.dotGeneral dot_S100000x256_S256x256_S100000x256_1_0_0_1_n_n none h
      (transpose S256x256 [1, 0] Wr transposes_S256x256_S256x256_1_0)))

/-- The two-layer head, flattened. -/
def head (h : C F S100000x256 .f32) (Wf1 : C F S128x256 .f32) (bf1 : C F S128 .f32) (Wf2 : C F S1x128 .f32)
    (bf2 : C F S1 .f32) : C F S100000 .f32 :=
  shapeCast S100000
    (addf
      (Host.dotGeneral dot_S100000x128_S128x1_S100000x1_1_0_0_1_n_n none
        (maximumf
          (addf
            (Host.dotGeneral dot_S100000x256_S256x128_S100000x128_1_0_0_1_n_n none h
              (transpose S256x128 [1, 0] Wf1 transposes_S128x256_S256x128_1_0))
            (broadcastInDim S100000x128 ![0, 1] bcast_S1x128_S100000x128_0_1 (broadcastInDim S1x128 ![1] bcast_S128_S1x128_1 bf1)))
          (broadcastInDim S100000x128 ![] bcast_S_S100000x128 (constant S_ .f32 0x00000000#32)))
        (transpose S128x1 [1, 0] Wf2 transposes_S1x128_S128x1_1_0))
      (broadcastInDim S100000x1 ![0, 1] bcast_S1x1_S100000x1_0_1 (broadcastInDim S1x1 ![1] bcast_S1_S1x1_1 bf2)))
    shapeCasts_S100000x1_S100000

/-- The whole network. -/
def out (x : C F S100000x128 .f32) (e : C F S2x600000 .i32) (W1l : C F S256x128 .f32) (b1 : C F S256 .f32)
    (W1r : C F S256x128 .f32) (W2l : C F S256x256 .f32) (b2 : C F S256 .f32) (W2r : C F S256x256 .f32)
    (Wf1 : C F S128x256 .f32) (bf1 : C F S128 .f32) (Wf2 : C F S1x128 .f32) (bf2 : C F S1 .f32) : C F S100000 .f32 :=
  head (layer2 (layer1 x e W1l b1 W1r) e W2l b2 W2r) Wf1 bf1 Wf2 bf2

end Cert.ReferenceIdeal.Spec

end
-- ==== Proof.RefValue.lean ====
/-
  What the reference program computes, read off its list of operations.

  Folding the operations over the starting contents and reading the result value gives the network
  `Spec.out` applied to the twelve argument arrays; no operation writes an argument.  The fold is read
  piece by piece: after the first piece, the first convolution's result, the feature sums of the second
  aggregation and the edge counts repeated along the features; after the second piece, the head applied
  to the second convolution.  The run then says: every weakly fair execution ends with the result value
  at the network of the starting arguments and the arguments as they were.
-/
import proofs.«100533_j71442486002111_1_alg».proof.Proof.RefRun
import proofs.«100533_j71442486002111_1_alg».proof.Proof.SpecRef

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

/-- The fold over all the operations is the fold over the second piece after the first. -/
theorem after_ops (V : Valuation τ sig (Elt F)) : after ops V = after ops1 (after ops0 V) := after_append ops0 ops1 V

/-! ## After the first piece -/

attribute [local irreducible] Host.gather Host.scatterAdd Host.divf Host.expm1 transpose broadcastInDim extractStridedSlice shapeCast in
set_option maxRecDepth 8192 in
set_option maxHeartbeats 4000000 in
/-- The first convolution's result. -/
theorem ops0_v30 (V : Valuation τ sig (Elt F)) :
    after ops0 V (main_v30 : DevRef τ sig) = (Spec.layer1 (V (main_arg0 : DevRef τ sig)) (V (main_arg1 : DevRef τ sig)) (V (main_arg2 : DevRef τ sig)) (V (main_arg3 : DevRef τ sig)) (V (main_arg4 : DevRef τ sig))) := by
  after_results_simp
  rfl

attribute [local irreducible] Host.gather Host.scatterAdd Host.divf Host.expm1 transpose broadcastInDim extractStridedSlice shapeCast in
set_option maxRecDepth 8192 in
set_option maxHeartbeats 4000000 in
/-- The second aggregation's sums: the first convolution's rows gathered along the edge sources and added
    into the edge destinations. -/
theorem ops0_v40 (V : Valuation τ sig (Elt F)) :
    after ops0 V (main_v40 : DevRef τ sig)
      = Host.scatterAdd scatter_S100000x256_S600000x1_S600000x256_1_0_0_1
          (broadcastInDim S100000x256 ![] bcast_S_S100000x256 (constant S_ .f32 0x00000000#32))
          (Spec.dstCol (V (main_arg1 : DevRef τ sig)))
          (Host.gather gather_S100000x256_S600000x1_S600000x256_1_0_n_n_0_1_1256 (Spec.layer1 (V (main_arg0 : DevRef τ sig)) (V (main_arg1 : DevRef τ sig)) (V (main_arg2 : DevRef τ sig)) (V (main_arg3 : DevRef τ sig)) (V (main_arg4 : DevRef τ sig))) (Spec.srcCol (V (main_arg1 : DevRef τ sig)))) := by
  after_results_simp
  rfl

attribute [local irreducible] Host.gather Host.scatterAdd Host.divf Host.expm1 transpose broadcastInDim extractStridedSlice shapeCast in
set_option maxRecDepth 8192 in
set_option maxHeartbeats 4000000 in
/-- The number of edges into each node (at least one), repeated along the 256 features. -/
theorem ops0_v47 (V : Valuation τ sig (Elt F)) :
    after ops0 V (main_v47 : DevRef τ sig)
      = broadcastInDim S100000x256 ![0, 1] bcast_S100000x1_S100000x256_0_1 (Spec.degree (V (main_arg1 : DevRef τ sig))) := by
  after_results_simp
  rfl

set_option maxRecDepth 8192 in
set_option maxHeartbeats 4000000 in
theorem ops0_arg0 (V : Valuation τ sig (Elt F)) : after ops0 V (main_arg0 : DevRef τ sig) = (V (main_arg0 : DevRef τ sig)) := by
  after_results_simp

set_option maxRecDepth 8192 in
set_option maxHeartbeats 4000000 in
theorem ops0_arg1 (V : Valuation τ sig (Elt F)) : after ops0 V (main_arg1 : DevRef τ sig) = (V (main_arg1 : DevRef τ sig)) := by
  after_results_simp

set_option maxRecDepth 8192 in
set_option maxHeartbeats 4000000 in
theorem ops0_arg2 (V : Valuation τ sig (Elt F)) : after ops0 V (main_arg2 : DevRef τ sig) = (V (main_arg2 : DevRef τ sig)) := by
  after_results_simp

set_option maxRecDepth 8192 in
set_option maxHeartbeats 4000000 in
theorem ops0_arg3 (V : Valuation τ sig (Elt F)) : after ops0 V (main_arg3 : DevRef τ sig) = (V (main_arg3 : DevRef τ sig)) := by
  after_results_simp

set_option maxRecDepth 8192 in
set_option maxHeartbeats 4000000 in
theorem ops0_arg4 (V : Valuation τ sig (Elt F)) : after ops0 V (main_arg4 : DevRef τ sig) = (V (main_arg4 : DevRef τ sig)) := by
  after_results_simp

set_option maxRecDepth 8192 in
set_option maxHeartbeats 4000000 in
theorem ops0_arg5 (V : Valuation τ sig (Elt F)) : after ops0 V (main_arg5 : DevRef τ sig) = (V (main_arg5 : DevRef τ sig)) := by
  after_results_simp

set_option maxRecDepth 8192 in
set_option maxHeartbeats 4000000 in
theorem ops0_arg6 (V : Valuation τ sig (Elt F)) : after ops0 V (main_arg6 : DevRef τ sig) = (V (main_arg6 : DevRef τ sig)) := by
  after_results_simp

set_option maxRecDepth 8192 in
set_option maxHeartbeats 4000000 in
theorem ops0_arg7 (V : Valuation τ sig (Elt F)) : after ops0 V (main_arg7 : DevRef τ sig) = (V (main_arg7 : DevRef τ sig)) := by
  after_results_simp

set_option maxRecDepth 8192 in
set_option maxHeartbeats 4000000 in
theorem ops0_arg8 (V : Valuation τ sig (Elt F)) : after ops0 V (main_arg8 : DevRef τ sig) = (V (main_arg8 : DevRef τ sig)) := by
  after_results_simp

set_option maxRecDepth 8192 in
set_option maxHeartbeats 4000000 in
theorem ops0_arg9 (V : Valuation τ sig (Elt F)) : after ops0 V (main_arg9 : DevRef τ sig) = (V (main_arg9 : DevRef τ sig)) := by
  after_results_simp

set_option maxRecDepth 8192 in
set_option maxHeartbeats 4000000 in
theorem ops0_arg10 (V : Valuation τ sig (Elt F)) : after ops0 V (main_arg10 : DevRef τ sig) = (V (main_arg10 : DevRef τ sig)) := by
  after_results_simp

set_option maxRecDepth 8192 in
set_option maxHeartbeats 4000000 in
theorem ops0_arg11 (V : Valuation τ sig (Elt F)) : after ops0 V (main_arg11 : DevRef τ sig) = (V (main_arg11 : DevRef τ sig)) := by
  after_results_simp

/-! ## After the second piece -/

attribute [local irreducible] Host.gather Host.scatterAdd Host.divf Host.expm1 transpose broadcastInDim extractStridedSlice shapeCast in
set_option maxRecDepth 8192 in
set_option maxHeartbeats 4000000 in
/-- The result value after the second piece, from any contents `W` before it: the head of the second
    convolution, whose mean is the quotient of the sums and the counts found in `W`. -/
theorem ops1_v69 (W : Valuation τ sig (Elt F)) :
    after ops1 W (main_v69 : DevRef τ sig)
      = Spec.head
          (Spec.elu (addf
            (addf
              (Host.dotGeneral dot_S100000x256_S256x256_S100000x256_1_0_0_1_n_n none
                (Host.divf (W (main_v40 : DevRef τ sig)) (W (main_v47 : DevRef τ sig)))
                (transpose S256x256 [1, 0] (W (main_arg5 : DevRef τ sig)) transposes_S256x256_S256x256_1_0))
              (Spec.bias256 (W (main_arg6 : DevRef τ sig))))
            (Host.dotGeneral dot_S100000x256_S256x256_S100000x256_1_0_0_1_n_n none (W (main_v30 : DevRef τ sig))
              (transpose S256x256 [1, 0] (W (main_arg7 : DevRef τ sig)) transposes_S256x256_S256x256_1_0))))
          (W (main_arg8 : DevRef τ sig)) (W (main_arg9 : DevRef τ sig)) (W (main_arg10 : DevRef τ sig)) (W (main_arg11 : DevRef τ sig)) := by
  after_results_simp
  rfl

set_option maxRecDepth 8192 in
set_option maxHeartbeats 4000000 in
theorem ops1_arg0 (W : Valuation τ sig (Elt F)) : after ops1 W (main_arg0 : DevRef τ sig) = (W (main_arg0 : DevRef τ sig)) := by
  after_results_simp

set_option maxRecDepth 8192 in
set_option maxHeartbeats 4000000 in
theorem ops1_arg1 (W : Valuation τ sig (Elt F)) : after ops1 W (main_arg1 : DevRef τ sig) = (W (main_arg1 : DevRef τ sig)) := by
  after_results_simp

set_option maxRecDepth 8192 in
set_option maxHeartbeats 4000000 in
theorem ops1_arg2 (W : Valuation τ sig (Elt F)) : after ops1 W (main_arg2 : DevRef τ sig) = (W (main_arg2 : DevRef τ sig)) := by
  after_results_simp

set_option maxRecDepth 8192 in
set_option maxHeartbeats 4000000 in
theorem ops1_arg3 (W : Valuation τ sig (Elt F)) : after ops1 W (main_arg3 : DevRef τ sig) = (W (main_arg3 : DevRef τ sig)) := by
  after_results_simp

set_option maxRecDepth 8192 in
set_option maxHeartbeats 4000000 in
theorem ops1_arg4 (W : Valuation τ sig (Elt F)) : after ops1 W (main_arg4 : DevRef τ sig) = (W (main_arg4 : DevRef τ sig)) := by
  after_results_simp

set_option maxRecDepth 8192 in
set_option maxHeartbeats 4000000 in
theorem ops1_arg5 (W : Valuation τ sig (Elt F)) : after ops1 W (main_arg5 : DevRef τ sig) = (W (main_arg5 : DevRef τ sig)) := by
  after_results_simp

set_option maxRecDepth 8192 in
set_option maxHeartbeats 4000000 in
theorem ops1_arg6 (W : Valuation τ sig (Elt F)) : after ops1 W (main_arg6 : DevRef τ sig) = (W (main_arg6 : DevRef τ sig)) := by
  after_results_simp

set_option maxRecDepth 8192 in
set_option maxHeartbeats 4000000 in
theorem ops1_arg7 (W : Valuation τ sig (Elt F)) : after ops1 W (main_arg7 : DevRef τ sig) = (W (main_arg7 : DevRef τ sig)) := by
  after_results_simp

set_option maxRecDepth 8192 in
set_option maxHeartbeats 4000000 in
theorem ops1_arg8 (W : Valuation τ sig (Elt F)) : after ops1 W (main_arg8 : DevRef τ sig) = (W (main_arg8 : DevRef τ sig)) := by
  after_results_simp

set_option maxRecDepth 8192 in
set_option maxHeartbeats 4000000 in
theorem ops1_arg9 (W : Valuation τ sig (Elt F)) : after ops1 W (main_arg9 : DevRef τ sig) = (W (main_arg9 : DevRef τ sig)) := by
  after_results_simp

set_option maxRecDepth 8192 in
set_option maxHeartbeats 4000000 in
theorem ops1_arg10 (W : Valuation τ sig (Elt F)) : after ops1 W (main_arg10 : DevRef τ sig) = (W (main_arg10 : DevRef τ sig)) := by
  after_results_simp

set_option maxRecDepth 8192 in
set_option maxHeartbeats 4000000 in
theorem ops1_arg11 (W : Valuation τ sig (Elt F)) : after ops1 W (main_arg11 : DevRef τ sig) = (W (main_arg11 : DevRef τ sig)) := by
  after_results_simp

/-! ## The whole program -/

attribute [local irreducible] Host.gather Host.scatterAdd Host.divf Host.expm1 transpose broadcastInDim extractStridedSlice shapeCast in
/-- The result value after all the operations is the network of the starting arguments. -/
theorem out_eq (V : Valuation τ sig (Elt F)) :
    after ops V (main_v69 : DevRef τ sig)
      = Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops, ops1_v69, ops0_v40, ops0_v47, ops0_v30, ops0_arg5, ops0_arg6, ops0_arg7, ops0_arg8, ops0_arg9, ops0_arg10, ops0_arg11]
  rfl

theorem arg0_eq (V : Valuation τ sig (Elt F)) : after ops V (main_arg0 : DevRef τ sig) = (V (main_arg0 : DevRef τ sig)) := by
  rw [after_ops, ops1_arg0, ops0_arg0]

theorem arg1_eq (V : Valuation τ sig (Elt F)) : after ops V (main_arg1 : DevRef τ sig) = (V (main_arg1 : DevRef τ sig)) := by
  rw [after_ops, ops1_arg1, ops0_arg1]

theorem arg2_eq (V : Valuation τ sig (Elt F)) : after ops V (main_arg2 : DevRef τ sig) = (V (main_arg2 : DevRef τ sig)) := by
  rw [after_ops, ops1_arg2, ops0_arg2]

theorem arg3_eq (V : Valuation τ sig (Elt F)) : after ops V (main_arg3 : DevRef τ sig) = (V (main_arg3 : DevRef τ sig)) := by
  rw [after_ops, ops1_arg3, ops0_arg3]

theorem arg4_eq (V : Valuation τ sig (Elt F)) : after ops V (main_arg4 : DevRef τ sig) = (V (main_arg4 : DevRef τ sig)) := by
  rw [after_ops, ops1_arg4, ops0_arg4]

theorem arg5_eq (V : Valuation τ sig (Elt F)) : after ops V (main_arg5 : DevRef τ sig) = (V (main_arg5 : DevRef τ sig)) := by
  rw [after_ops, ops1_arg5, ops0_arg5]

theorem arg6_eq (V : Valuation τ sig (Elt F)) : after ops V (main_arg6 : DevRef τ sig) = (V (main_arg6 : DevRef τ sig)) := by
  rw [after_ops, ops1_arg6, ops0_arg6]

theorem arg7_eq (V : Valuation τ sig (Elt F)) : after ops V (main_arg7 : DevRef τ sig) = (V (main_arg7 : DevRef τ sig)) := by
  rw [after_ops, ops1_arg7, ops0_arg7]

theorem arg8_eq (V : Valuation τ sig (Elt F)) : after ops V (main_arg8 : DevRef τ sig) = (V (main_arg8 : DevRef τ sig)) := by
  rw [after_ops, ops1_arg8, ops0_arg8]

theorem arg9_eq (V : Valuation τ sig (Elt F)) : after ops V (main_arg9 : DevRef τ sig) = (V (main_arg9 : DevRef τ sig)) := by
  rw [after_ops, ops1_arg9, ops0_arg9]

theorem arg10_eq (V : Valuation τ sig (Elt F)) : after ops V (main_arg10 : DevRef τ sig) = (V (main_arg10 : DevRef τ sig)) := by
  rw [after_ops, ops1_arg10, ops0_arg10]

theorem arg11_eq (V : Valuation τ sig (Elt F)) : after ops V (main_arg11 : DevRef τ sig) = (V (main_arg11 : DevRef τ sig)) := by
  rw [after_ops, ops1_arg11, ops0_arg11]

/-- From any memory with zero counters, for any float values: every weakly fair execution of the reference
    program terminates with the result value at the network of the starting arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v69).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.Hand

end
-- ==== Proof.BridgeLayers.lean ====
/-
  The two convolution layers, the kernel program's way and the reference's way, are one array.

  Both compute, at node `p` and output feature `q`,
  `elu (∑ k, mean[p,k] · Wl[q,k] + ∑ k, x[p,k] · Wr[q,k] + b[q])`, where `mean` is the mean aggregation of the
  layer's input `x` over each node's incoming edges.  The kernel program forms one product of the aggregation
  and the input side by side with the two weight matrices side by side, transposed: its sum over the doubled
  contracted axis splits into the two halves.  The reference forms two products and adds the bias between
  them; addition of extended reals is commutative and associative, so the order does not matter.  The
  exponential linear unit is spelt `e^a - 1` on one side and `1 · (e^a' - 1)` on the other, with `a'` the
  argument zeroed where it is positive — a place where the outer selection takes the argument itself.
-/
import proofs.«100533_j71442486002111_1_alg».proof.Proof.SpecKer
import proofs.«100533_j71442486002111_1_alg».proof.Proof.SpecRef
import proofs.«100533_j71442486002111_1_alg».proof.Proof.LibPlainDot
import Idealize.ShloMosaic.Lib.ValueLayout
import Idealize.ShloMosaic.Lib.Pipeline.Value
import Idealize.ShloMosaic.Lib.IdealHost
import Idealize.ShloMosaic.Lib.ValueIdx
import Idealize.ShloMosaic.PureOps.Ideal.Laws

noncomputable section

open scoped BigOperators

namespace Cert.Bridge

open Idealize.ShloMosaic Idealize.ShloMosaic.ValueIdx

/-! ## The mean aggregation is the same function on both sides -/

attribute [local irreducible] Host.gather Host.scatterAdd Host.divf broadcastInDim extractStridedSlice shapeCast in
/-- The two programs spell the mean aggregation of 128 features with the same operations on the same shapes. -/
theorem segMean128_eq (x : Cert.KernelIdeal.Spec.C Ideal Cert.KernelIdeal.S100000x128 .f32) (e : Cert.KernelIdeal.Spec.C Ideal Cert.KernelIdeal.S2x600000 .i32) :
    Cert.KernelIdeal.Spec.segMean128 (F := Ideal) x e = Cert.ReferenceIdeal.Spec.segMean128 (F := Ideal) x e := rfl

attribute [local irreducible] Host.gather Host.scatterAdd Host.divf broadcastInDim extractStridedSlice shapeCast in
/-- The same for 256 features. -/
theorem segMean256_eq (h : Cert.KernelIdeal.Spec.C Ideal Cert.KernelIdeal.S100000x256 .f32) (e : Cert.KernelIdeal.Spec.C Ideal Cert.KernelIdeal.S2x600000 .i32) :
    Cert.KernelIdeal.Spec.segMean256 (F := Ideal) h e = Cert.ReferenceIdeal.Spec.segMean256 (F := Ideal) h e := rfl

namespace Layers

/-! ## A sum over a doubled axis, and two arrays side by side -/

/-- A sum over `K + K` indices is the sum over the first `K` plus the sum over the last `K`. -/
theorem sum_halves {K c : ℕ} (hc : K + K = c) (f : Fin c → EReal) :
    ∑ k, f k = (∑ k : Fin K, f ⟨k.val, by have := k.isLt; omega⟩) + ∑ k : Fin K, f ⟨K + k.val, by have := k.isLt; omega⟩ := by
  subst hc
  exact Fin.sum_univ_add f

/-- Two matrices side by side read, at a column of the first, the first. -/
theorem concat_cols_left {n a b c : ℕ} (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (p : Fin n) (k : Fin a) (hk : k.val < c) :
    concatenate ⟨2, ![n, c]⟩ (1 : Fin 2) [⟨⟨2, ![n, a]⟩, x₁⟩, ⟨⟨2, ![n, b]⟩, x₂⟩] h (ix2 p (⟨k.val, hk⟩ : Fin c)) = x₁ (ix2 p k) :=
  concatenate_pair_apply_left (t := ⟨2, ![n, c]⟩) (s₁ := ⟨2, ![n, a]⟩) (s₂ := ⟨2, ![n, b]⟩) (1 : Fin 2) x₁ x₂ h _ rfl (ix2 p k) (by
    intro d
    match d with
    | ⟨0, _⟩ => rfl
    | ⟨1, _⟩ => rfl)

/-- Two matrices side by side read, at a column past the first's width, the second at that column less the width. -/
theorem concat_cols_right {n a b c : ℕ} (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (p : Fin n) (k : Fin b) (hk : a + k.val < c) :
    concatenate ⟨2, ![n, c]⟩ (1 : Fin 2) [⟨⟨2, ![n, a]⟩, x₁⟩, ⟨⟨2, ![n, b]⟩, x₂⟩] h (ix2 p (⟨a + k.val, hk⟩ : Fin c)) = x₂ (ix2 p k) :=
  concatenate_pair_apply_right (t := ⟨2, ![n, c]⟩) (s₁ := ⟨2, ![n, a]⟩) (s₂ := ⟨2, ![n, b]⟩) (1 : Fin 2) x₁ x₂ h _ rfl rfl (ix2 p k) (by
    intro d hd
    match d with
    | ⟨0, _⟩ => rfl
    | ⟨1, _⟩ => exact absurd rfl hd) (by
    show k.val + a = a + k.val
    omega)

/-- The product of `[m | x]` with `[Wl | Wr]ᵀ`, read at an entry, is the sum of the two products `m · Wlᵀ` and
    `x · Wrᵀ` at that entry: the contracted axis has the two halves. -/
theorem combine_sum {n K c N : ℕ} (hc : K + K = c)
    (m x : (⟨2, ![n, K]⟩ : Shape).Idx → EReal) (Wl Wr : (⟨2, ![N, K]⟩ : Shape).Idx → EReal)
    (z : (⟨2, ![n, c]⟩ : Shape).Idx → EReal) (w : (⟨2, ![c, N]⟩ : Shape).Idx → EReal)
    (hzl : ∀ (p : Fin n) (k : Fin K) (hk : k.val < c), z (ix2 p (⟨k.val, hk⟩ : Fin c)) = m (ix2 p k))
    (hzr : ∀ (p : Fin n) (k : Fin K) (hk : K + k.val < c), z (ix2 p (⟨K + k.val, hk⟩ : Fin c)) = x (ix2 p k))
    (hwl : ∀ (k : Fin K) (hk : k.val < c) (q : Fin N), w (ix2 (⟨k.val, hk⟩ : Fin c) q) = Wl (ix2 q k))
    (hwr : ∀ (k : Fin K) (hk : K + k.val < c) (q : Fin N), w (ix2 (⟨K + k.val, hk⟩ : Fin c) q) = Wr (ix2 q k))
    (p : Fin n) (q : Fin N) :
    ∑ k : Fin c, z (ix2 p k) * w (ix2 k q)
      = (∑ k : Fin K, m (ix2 p k) * Wl (ix2 q k)) + ∑ k : Fin K, x (ix2 p k) * Wr (ix2 q k) := by
  refine (sum_halves hc fun k => z (ix2 p k) * w (ix2 k q)).trans ?_
  refine congrArg₂ (· + ·) (Finset.sum_congr rfl fun k _ => ?_) (Finset.sum_congr rfl fun k _ => ?_)
  · exact congrArg₂ (· * ·) (hzl p k _) (hwl k _ q)
  · exact congrArg₂ (· * ·) (hzr p k _) (hwr k _ q)

/-! ## The exponential linear unit at one extended real -/

/-- The reference's spelling: `a` where `a > 0`, else `1 · (e^a' - 1)` with `a'` zero where `a > 0` and `a` elsewhere. -/
def eluR (a : EReal) : EReal :=
  Scalar.select (Ideal.cmp .ogt a (Ideal.ofBits .f32 0x00000000#32)) a
    (Ideal.ofBits .f32 0x3F800000#32
      * (Ideal.exp (Scalar.select (Ideal.cmp .ogt a (Ideal.ofBits .f32 0x00000000#32)) (Ideal.ofBits .f32 0x00000000#32) a) - 1))

/-- The two spellings agree at every extended real: where the comparison holds both are `a`; where it does not, the
    inner selection is `a` and the factor is one. -/
theorem elu_scalar (a : EReal) : Cert.KernelIdeal.Spec.eluK a = eluR a := by
  unfold Cert.KernelIdeal.Spec.eluK eluR
  rcases BitVec.eq_zero_or_eq_one (Ideal.cmp .ogt a (Ideal.ofBits .f32 0x00000000#32)) with h | h
  · simp only [h, select_zero, Ideal.ofBits_one_f32, one_mul]
  · simp only [h, select_one]

/-- The reference's exponential linear unit of an array, read at an entry. -/
theorem eluRef_apply (A : FVec Ideal Cert.ReferenceIdeal.S100000x256 .f32) (i : Cert.ReferenceIdeal.S100000x256.Idx) :
    Cert.ReferenceIdeal.Spec.elu (F := Ideal) A i = eluR (A i) := rfl

/-! ## The reference's products and bias at an entry -/

/-- The first layer's products, 100000 × 128 by 128 × 256. -/
theorem dotA_apply (l : FVec Ideal Cert.ReferenceIdeal.S100000x128 .f32) (r : FVec Ideal Cert.ReferenceIdeal.S128x256 .f32) (p : Fin 100000) (q : Fin 256) :
    Host.dotGeneral Cert.ReferenceIdeal.dot_S100000x128_S128x256_S100000x256_1_0_0_1_n_n none l r (ix2 p q) = ∑ k : Fin 128, l (ix2 p k) * r (ix2 k q) :=
  Cert.Lib.PlainDot.dotGeneral_apply Cert.ReferenceIdeal.dot_S100000x128_S128x256_S100000x256_1_0_0_1_n_n rfl rfl
    (fun j q => by simp [DotDims.lhsIdx, Cert.ReferenceIdeal.dot_S100000x128_S128x256_S100000x256_1_0_0_1_n_n]; rfl)
    (fun j q => by simp [DotDims.lhsIdx, Cert.ReferenceIdeal.dot_S100000x128_S128x256_S100000x256_1_0_0_1_n_n]; rfl)
    (fun j q => by simp [DotDims.rhsIdx, Cert.ReferenceIdeal.dot_S100000x128_S128x256_S100000x256_1_0_0_1_n_n]; rfl)
    (fun j q => by simp [DotDims.rhsIdx, Cert.ReferenceIdeal.dot_S100000x128_S128x256_S100000x256_1_0_0_1_n_n]; rfl)
    none .single l r (ix2 p q)

/-- The second layer's products, 100000 × 256 by 256 × 256. -/
theorem dotB_apply (l : FVec Ideal Cert.ReferenceIdeal.S100000x256 .f32) (r : FVec Ideal Cert.ReferenceIdeal.S256x256 .f32) (p : Fin 100000) (q : Fin 256) :
    Host.dotGeneral Cert.ReferenceIdeal.dot_S100000x256_S256x256_S100000x256_1_0_0_1_n_n none l r (ix2 p q) = ∑ k : Fin 256, l (ix2 p k) * r (ix2 k q) :=
  Cert.Lib.PlainDot.dotGeneral_apply Cert.ReferenceIdeal.dot_S100000x256_S256x256_S100000x256_1_0_0_1_n_n rfl rfl
    (fun j q => by simp [DotDims.lhsIdx, Cert.ReferenceIdeal.dot_S100000x256_S256x256_S100000x256_1_0_0_1_n_n]; rfl)
    (fun j q => by simp [DotDims.lhsIdx, Cert.ReferenceIdeal.dot_S100000x256_S256x256_S100000x256_1_0_0_1_n_n]; rfl)
    (fun j q => by simp [DotDims.rhsIdx, Cert.ReferenceIdeal.dot_S100000x256_S256x256_S100000x256_1_0_0_1_n_n]; rfl)
    (fun j q => by simp [DotDims.rhsIdx, Cert.ReferenceIdeal.dot_S100000x256_S256x256_S100000x256_1_0_0_1_n_n]; rfl)
    none .single l r (ix2 p q)

/-- The bias repeated on every row reads, at `(p, q)`, the vector's entry `q`. -/
theorem bias256_apply (b : FVec Ideal Cert.ReferenceIdeal.S256 .f32) (p : Fin 100000) (q : Fin 256) :
    Cert.ReferenceIdeal.Spec.bias256 (F := Ideal) b (ix2 p q) = b (ix1 q) := by
  unfold Cert.ReferenceIdeal.Spec.bias256
  refine (broadcastInDim_apply (![0, 1] : Fin 2 → Fin 2) _ _ (ix2 p q) (ix2 (0 : Fin 1) q) fun d => ?_).trans ?_
  · match d with
    | ⟨0, _⟩ => rfl
    | ⟨1, _⟩ => rfl
  · refine broadcastInDim_apply (![1] : Fin 1 → Fin 2) _ b (ix2 (0 : Fin 1) q) (ix1 q) fun d => ?_
    match d with
    | ⟨0, _⟩ => rfl

/-- The kernel program's one-row bias matrix reads, at `(0, q)`, the vector's entry `q`. -/
theorem row256_apply (b : Cert.KernelIdeal.Spec.C Ideal Cert.KernelIdeal.S256 .f32) (q : Fin 256) :
    Cert.KernelIdeal.Spec.row256 b (ix2 (0 : Fin 1) q) = b (ix1 q) :=
  shapeCast_a_1a_apply b _ (0 : Fin 1) q

/-! ## The first layer at an entry, both ways -/

theorem h1_apply (x : Cert.KernelIdeal.Spec.C Ideal Cert.KernelIdeal.S100000x128 .f32) (e : Cert.KernelIdeal.Spec.C Ideal Cert.KernelIdeal.S2x600000 .i32)
    (Wl : Cert.KernelIdeal.Spec.C Ideal Cert.KernelIdeal.S256x128 .f32) (b : Cert.KernelIdeal.Spec.C Ideal Cert.KernelIdeal.S256 .f32) (Wr : Cert.KernelIdeal.Spec.C Ideal Cert.KernelIdeal.S256x128 .f32)
    (p : Fin 100000) (q : Fin 256) :
    Cert.KernelIdeal.Spec.h1 x e Wl b Wr (ix2 p q)
      = Cert.KernelIdeal.Spec.eluK ((∑ k : Fin 256, Cert.KernelIdeal.Spec.z1 x e (ix2 p k) * Cert.KernelIdeal.Spec.w1T Wl Wr (ix2 k q)) + Cert.KernelIdeal.Spec.row256 b (ix2 (0 : Fin 1) q)) := rfl

theorem h1_sum (x : Cert.KernelIdeal.Spec.C Ideal Cert.KernelIdeal.S100000x128 .f32) (e : Cert.KernelIdeal.Spec.C Ideal Cert.KernelIdeal.S2x600000 .i32)
    (Wl Wr : Cert.KernelIdeal.Spec.C Ideal Cert.KernelIdeal.S256x128 .f32) (p : Fin 100000) (q : Fin 256) :
    (∑ k : Fin 256, Cert.KernelIdeal.Spec.z1 x e (ix2 p k) * Cert.KernelIdeal.Spec.w1T Wl Wr (ix2 k q))
      = (∑ k : Fin 128, Cert.KernelIdeal.Spec.segMean128 x e (ix2 p k) * Wl (ix2 q k)) + ∑ k : Fin 128, x (ix2 p k) * Wr (ix2 q k) :=
  combine_sum (K := 128) (c := 256) rfl (Cert.KernelIdeal.Spec.segMean128 x e) x Wl Wr (Cert.KernelIdeal.Spec.z1 x e) (Cert.KernelIdeal.Spec.w1T Wl Wr)
    (fun p k hk => concat_cols_left _ _ _ p k hk)
    (fun p k hk => concat_cols_right _ _ _ p k hk)
    (fun k hk q => (transpose_ix2_apply _ _ (⟨k.val, hk⟩ : Fin 256) q).trans (concat_cols_left Wl Wr _ q k hk))
    (fun k hk q => (transpose_ix2_apply _ _ (⟨128 + k.val, hk⟩ : Fin 256) q).trans (concat_cols_right Wl Wr _ q k hk))
    p q

theorem layer1_apply (x : Cert.KernelIdeal.Spec.C Ideal Cert.KernelIdeal.S100000x128 .f32) (e : Cert.KernelIdeal.Spec.C Ideal Cert.KernelIdeal.S2x600000 .i32)
    (Wl : Cert.KernelIdeal.Spec.C Ideal Cert.KernelIdeal.S256x128 .f32) (b : Cert.KernelIdeal.Spec.C Ideal Cert.KernelIdeal.S256 .f32) (Wr : Cert.KernelIdeal.Spec.C Ideal Cert.KernelIdeal.S256x128 .f32)
    (p : Fin 100000) (q : Fin 256) :
    Cert.ReferenceIdeal.Spec.layer1 (F := Ideal) x e Wl b Wr (ix2 p q)
      = eluR (((∑ k : Fin 128, Cert.ReferenceIdeal.Spec.segMean128 (F := Ideal) x e (ix2 p k) * Wl (ix2 q k)) + b (ix1 q))
          + ∑ k : Fin 128, x (ix2 p k) * Wr (ix2 q k)) := by
  unfold Cert.ReferenceIdeal.Spec.layer1
  refine (eluRef_apply _ _).trans (congrArg eluR ?_)
  refine (addf_apply _ _ _).trans (congrArg₂ (· + ·) ((addf_apply _ _ _).trans (congrArg₂ (· + ·) ?_ ?_)) ?_)
  · exact (dotA_apply _ _ p q).trans (Finset.sum_congr rfl fun k _ =>
      congrArg (fun t : EReal => Cert.ReferenceIdeal.Spec.segMean128 (F := Ideal) x e (ix2 p k) * t) (transpose_ix2_apply Wl _ k q))
  · exact bias256_apply b p q
  · exact (dotA_apply _ _ p q).trans (Finset.sum_congr rfl fun k _ =>
      congrArg (fun t : EReal => x (ix2 p k) * t) (transpose_ix2_apply Wr _ k q))

/-! ## The second layer at an entry, both ways -/

theorem h2_apply (h : Cert.KernelIdeal.Spec.C Ideal Cert.KernelIdeal.S100000x256 .f32) (e : Cert.KernelIdeal.Spec.C Ideal Cert.KernelIdeal.S2x600000 .i32)
    (Wl : Cert.KernelIdeal.Spec.C Ideal Cert.KernelIdeal.S256x256 .f32) (b : Cert.KernelIdeal.Spec.C Ideal Cert.KernelIdeal.S256 .f32) (Wr : Cert.KernelIdeal.Spec.C Ideal Cert.KernelIdeal.S256x256 .f32)
    (p : Fin 100000) (q : Fin 256) :
    Cert.KernelIdeal.Spec.h2 h e Wl b Wr (ix2 p q)
      = Cert.KernelIdeal.Spec.eluK ((∑ k : Fin 512, Cert.KernelIdeal.Spec.z2 h e (ix2 p k) * Cert.KernelIdeal.Spec.w2T Wl Wr (ix2 k q)) + Cert.KernelIdeal.Spec.row256 b (ix2 (0 : Fin 1) q)) := rfl

theorem h2_sum (h : Cert.KernelIdeal.Spec.C Ideal Cert.KernelIdeal.S100000x256 .f32) (e : Cert.KernelIdeal.Spec.C Ideal Cert.KernelIdeal.S2x600000 .i32)
    (Wl Wr : Cert.KernelIdeal.Spec.C Ideal Cert.KernelIdeal.S256x256 .f32) (p : Fin 100000) (q : Fin 256) :
    (∑ k : Fin 512, Cert.KernelIdeal.Spec.z2 h e (ix2 p k) * Cert.KernelIdeal.Spec.w2T Wl Wr (ix2 k q))
      = (∑ k : Fin 256, Cert.KernelIdeal.Spec.segMean256 h e (ix2 p k) * Wl (ix2 q k)) + ∑ k : Fin 256, h (ix2 p k) * Wr (ix2 q k) :=
  combine_sum (K := 256) (c := 512) rfl (Cert.KernelIdeal.Spec.segMean256 h e) h Wl Wr (Cert.KernelIdeal.Spec.z2 h e) (Cert.KernelIdeal.Spec.w2T Wl Wr)
    (fun p k hk => concat_cols_left _ _ _ p k hk)
    (fun p k hk => concat_cols_right _ _ _ p k hk)
    (fun k hk q => (transpose_ix2_apply _ _ (⟨k.val, hk⟩ : Fin 512) q).trans (concat_cols_left Wl Wr _ q k hk))
    (fun k hk q => (transpose_ix2_apply _ _ (⟨256 + k.val, hk⟩ : Fin 512) q).trans (concat_cols_right Wl Wr _ q k hk))
    p q

theorem layer2_apply (h : Cert.KernelIdeal.Spec.C Ideal Cert.KernelIdeal.S100000x256 .f32) (e : Cert.KernelIdeal.Spec.C Ideal Cert.KernelIdeal.S2x600000 .i32)
    (Wl : Cert.KernelIdeal.Spec.C Ideal Cert.KernelIdeal.S256x256 .f32) (b : Cert.KernelIdeal.Spec.C Ideal Cert.KernelIdeal.S256 .f32) (Wr : Cert.KernelIdeal.Spec.C Ideal Cert.KernelIdeal.S256x256 .f32)
    (p : Fin 100000) (q : Fin 256) :
    Cert.ReferenceIdeal.Spec.layer2 (F := Ideal) h e Wl b Wr (ix2 p q)
      = eluR (((∑ k : Fin 256, Cert.ReferenceIdeal.Spec.segMean256 (F := Ideal) h e (ix2 p k) * Wl (ix2 q k)) + b (ix1 q))
          + ∑ k : Fin 256, h (ix2 p k) * Wr (ix2 q k)) := by
  unfold Cert.ReferenceIdeal.Spec.layer2
  refine (eluRef_apply _ _).trans (congrArg eluR ?_)
  refine (addf_apply _ _ _).trans (congrArg₂ (· + ·) ((addf_apply _ _ _).trans (congrArg₂ (· + ·) ?_ ?_)) ?_)
  · exact (dotB_apply _ _ p q).trans (Finset.sum_congr rfl fun k _ =>
      congrArg (fun t : EReal => Cert.ReferenceIdeal.Spec.segMean256 (F := Ideal) h e (ix2 p k) * t) (transpose_ix2_apply Wl _ k q))
  · exact bias256_apply b p q
  · exact (dotB_apply _ _ p q).trans (Finset.sum_congr rfl fun k _ =>
      congrArg (fun t : EReal => h (ix2 p k) * t) (transpose_ix2_apply Wr _ k q))

end Layers

open Layers

/-! ## The layers are one array -/

/-- The first convolution layer. -/
theorem layer1_eq (x : Cert.KernelIdeal.Spec.C Ideal Cert.KernelIdeal.S100000x128 .f32) (e : Cert.KernelIdeal.Spec.C Ideal Cert.KernelIdeal.S2x600000 .i32)
    (Wl : Cert.KernelIdeal.Spec.C Ideal Cert.KernelIdeal.S256x128 .f32) (b : Cert.KernelIdeal.Spec.C Ideal Cert.KernelIdeal.S256 .f32) (Wr : Cert.KernelIdeal.Spec.C Ideal Cert.KernelIdeal.S256x128 .f32) :
    Cert.KernelIdeal.Spec.h1 x e Wl b Wr = Cert.ReferenceIdeal.Spec.layer1 (F := Ideal) x e Wl b Wr := by
  funext i
  obtain ⟨p, q, rfl⟩ : ∃ (p : Fin 100000) (q : Fin 256), i = ix2 p q := ⟨i 0, i 1, eq_ix2 i⟩
  refine ((h1_apply x e Wl b Wr p q).trans ?_).trans (layer1_apply x e Wl b Wr p q).symm
  refine (elu_scalar _).trans (congrArg eluR ?_)
  refine (congrArg₂ (· + ·) (h1_sum x e Wl Wr p q) (row256_apply b q)).trans ?_
  rw [segMean128_eq x e]
  exact add_right_comm _ _ _

/-- The second convolution layer. -/
theorem layer2_eq (h : Cert.KernelIdeal.Spec.C Ideal Cert.KernelIdeal.S100000x256 .f32) (e : Cert.KernelIdeal.Spec.C Ideal Cert.KernelIdeal.S2x600000 .i32)
    (Wl : Cert.KernelIdeal.Spec.C Ideal Cert.KernelIdeal.S256x256 .f32) (b : Cert.KernelIdeal.Spec.C Ideal Cert.KernelIdeal.S256 .f32) (Wr : Cert.KernelIdeal.Spec.C Ideal Cert.KernelIdeal.S256x256 .f32) :
    Cert.KernelIdeal.Spec.h2 h e Wl b Wr = Cert.ReferenceIdeal.Spec.layer2 (F := Ideal) h e Wl b Wr := by
  funext i
  obtain ⟨p, q, rfl⟩ : ∃ (p : Fin 100000) (q : Fin 256), i = ix2 p q := ⟨i 0, i 1, eq_ix2 i⟩
  refine ((h2_apply h e Wl b Wr p q).trans ?_).trans (layer2_apply h e Wl b Wr p q).symm
  refine (elu_scalar _).trans (congrArg eluR ?_)
  refine (congrArg₂ (· + ·) (h2_sum h e Wl Wr p q) (row256_apply b q)).trans ?_
  rw [segMean256_eq h e]
  exact add_right_comm _ _ _

end Cert.Bridge

end
-- ==== Proof.BridgeHead.lean ====
/-
  The head, the kernel program's way and the reference's way, is one array.

  Both compute, for each node `p`, the sum over the 128 hidden units `j` of
  `max (∑ k < 256, h[p,k] · Wf1[j,k] + bf1[j]) 0 · Wf2[0,j]`, plus `bf2[0]`.  The reference spells the biases as
  vectors broadcast along the rows and the weights as transposes under a `dot_general`; the kernel program's
  whole-array function reads one-row bias matrices obtained by a reshape and the same transposes.  Read at an
  entry the two spellings are the same nested sums of the same entries of the arguments.
-/
import proofs.«100533_j71442486002111_1_alg».proof.Proof.SpecKer
import proofs.«100533_j71442486002111_1_alg».proof.Proof.SpecRef
import proofs.«100533_j71442486002111_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-! ## The reference's two products at an entry -/

/-- The hidden layer's product, 100000 × 256 by 256 × 128: entry `(p, j)` is the sum over `k` of the left operand
    at `(p, k)` times the right operand at `(k, j)`. -/
theorem dot1_apply (l : FVec Ideal Cert.ReferenceIdeal.S100000x256 .f32) (r : FVec Ideal Cert.ReferenceIdeal.S256x128 .f32)
    (p : Fin 100000) (j : Fin 128) :
    Host.dotGeneral Cert.ReferenceIdeal.dot_S100000x256_S256x128_S100000x128_1_0_0_1_n_n none l r (ix2 p j)
      = ∑ k : Fin 256, l (ix2 p k) * r (ix2 k j) :=
  Cert.Lib.PlainDot.dotGeneral_apply Cert.ReferenceIdeal.dot_S100000x256_S256x128_S100000x128_1_0_0_1_n_n rfl rfl
    (fun j q => by simp [DotDims.lhsIdx, Cert.ReferenceIdeal.dot_S100000x256_S256x128_S100000x128_1_0_0_1_n_n]; rfl)
    (fun j q => by simp [DotDims.lhsIdx, Cert.ReferenceIdeal.dot_S100000x256_S256x128_S100000x128_1_0_0_1_n_n]; rfl)
    (fun j q => by simp [DotDims.rhsIdx, Cert.ReferenceIdeal.dot_S100000x256_S256x128_S100000x128_1_0_0_1_n_n]; rfl)
    (fun j q => by simp [DotDims.rhsIdx, Cert.ReferenceIdeal.dot_S100000x256_S256x128_S100000x128_1_0_0_1_n_n]; rfl)
    none .single l r (ix2 p j)

/-- The output layer's product, 100000 × 128 by 128 × 1. -/
theorem dot2_apply (l : FVec Ideal Cert.ReferenceIdeal.S100000x128 .f32) (r : FVec Ideal Cert.ReferenceIdeal.S128x1 .f32)
    (p : Fin 100000) (q : Fin 1) :
    Host.dotGeneral Cert.ReferenceIdeal.dot_S100000x128_S128x1_S100000x1_1_0_0_1_n_n none l r (ix2 p q)
      = ∑ j : Fin 128, l (ix2 p j) * r (ix2 j q) :=
  Cert.Lib.PlainDot.dotGeneral_apply Cert.ReferenceIdeal.dot_S100000x128_S128x1_S100000x1_1_0_0_1_n_n rfl rfl
    (fun j q => by simp [DotDims.lhsIdx, Cert.ReferenceIdeal.dot_S100000x128_S128x1_S100000x1_1_0_0_1_n_n]; rfl)
    (fun j q => by simp [DotDims.lhsIdx, Cert.ReferenceIdeal.dot_S100000x128_S128x1_S100000x1_1_0_0_1_n_n]; rfl)
    (fun j q => by simp [DotDims.rhsIdx, Cert.ReferenceIdeal.dot_S100000x128_S128x1_S100000x1_1_0_0_1_n_n]; rfl)
    (fun j q => by have h := idx2_lt1 j; simp [DotDims.rhsIdx, Cert.ReferenceIdeal.dot_S100000x128_S128x1_S100000x1_1_0_0_1_n_n]; omega)
    none .single l r (ix2 p q)

/-! ## The biases and the zero, read at an entry -/

/-- A vector broadcast to one row and then along the rows reads, at `(p, j)`, the vector's entry `j`. -/
theorem bias_rows_apply {n a : ℕ} (b : (⟨1, ![a]⟩ : Shape).Idx → EReal)
    (h₁ : (⟨1, ![a]⟩ : Shape).BroadcastsInDim ⟨2, ![1, a]⟩ (![1] : Fin 1 → Fin 2))
    (h₂ : (⟨2, ![1, a]⟩ : Shape).BroadcastsInDim ⟨2, ![n, a]⟩ (![0, 1] : Fin 2 → Fin 2))
    (p : Fin n) (j : Fin a) :
    broadcastInDim ⟨2, ![n, a]⟩ ![0, 1] h₂ (broadcastInDim ⟨2, ![1, a]⟩ ![1] h₁ b) (ix2 p j) = b (ix1 j) := by
  refine (broadcastInDim_apply (![0, 1] : Fin 2 → Fin 2) h₂ _ (ix2 p j) (ix2 (0 : Fin 1) j) fun d => ?_).trans ?_
  · match d with
    | ⟨0, _⟩ => rfl
    | ⟨1, _⟩ =>
      show j.val = if a = 1 then 0 else j.val
      split
      · have := j.isLt; omega
      · rfl
  · refine broadcastInDim_apply (![1] : Fin 1 → Fin 2) h₁ b (ix2 (0 : Fin 1) j) (ix1 j) fun d => ?_
    match d with
    | ⟨0, _⟩ =>
      show j.val = if a = 1 then 0 else j.val
      split
      · have := j.isLt; omega
      · rfl

/-- A scalar constant broadcast to a matrix reads the constant's value everywhere. -/
theorem zero_apply {n a : ℕ} (h₀ : (⟨0, ![]⟩ : Shape).BroadcastsInDim ⟨2, ![n, a]⟩ (![] : Fin 0 → Fin 2)) (w : BitVec FTy.f32.bits)
    (i : (⟨2, ![n, a]⟩ : Shape).Idx) :
    broadcastInDim ⟨2, ![n, a]⟩ ![] h₀ (constant (F := Ideal) ⟨0, ![]⟩ .f32 w) i = Ideal.ofBits .f32 w := by
  refine (broadcastInDim_apply (![] : Fin 0 → Fin 2) h₀ (constant (F := Ideal) ⟨0, ![]⟩ .f32 w) i ix0 fun d => d.elim0).trans ?_
  exact constant_apply w ix0

/-! ## The kernel program's whole-array function at an entry -/

/-- The head of whole arrays at `(p, q)`, its two coordinates named. -/
theorem headK_apply (h : FVec Ideal Cert.KernelIdeal.S100000x256 .f32) (w1 : FVec Ideal Cert.KernelIdeal.S256x128 .f32)
    (b1 : FVec Ideal Cert.KernelIdeal.S1x128 .f32) (w2 : FVec Ideal Cert.KernelIdeal.S128x1 .f32)
    (b2 : FVec Ideal Cert.KernelIdeal.S1x1 .f32) (p : Fin 100000) (q : Fin 1) :
    Cert.KernelIdeal.Spec.headK h w1 b1 w2 b2 (ix2 p q)
      = (∑ j : Fin 128, max ((∑ k : Fin 256, h (ix2 p k) * w1 (ix2 k j)) + b1 (ix2 (0 : Fin 1) j)) (Ideal.ofBits .f32 0x00000000#32)
          * w2 (ix2 j q))
        + b2 (ix2 (0 : Fin 1) q) := rfl

/-! ## The two heads are one array -/

/-- Entry by entry: both sides are the sum over the hidden units of the cut-off hidden value times the output
    weight, plus the output bias; the one-row bias matrices and the broadcast bias vectors hold the same entries, and
    the transposed weights are the same arrays on both sides. -/
theorem head_eq (h : Cert.KernelIdeal.Spec.C Ideal Cert.KernelIdeal.S100000x256 .f32)
    (Wf1 : Cert.KernelIdeal.Spec.C Ideal Cert.KernelIdeal.S128x256 .f32) (bf1 : Cert.KernelIdeal.Spec.C Ideal Cert.KernelIdeal.S128 .f32)
    (Wf2 : Cert.KernelIdeal.Spec.C Ideal Cert.KernelIdeal.S1x128 .f32) (bf2 : Cert.KernelIdeal.Spec.C Ideal Cert.KernelIdeal.S1 .f32) :
    Cert.KernelIdeal.Spec.headFlat h Wf1 bf1 Wf2 bf2 = Cert.ReferenceIdeal.Spec.head (F := Ideal) h Wf1 bf1 Wf2 bf2 := by
  unfold Cert.KernelIdeal.Spec.headFlat Cert.ReferenceIdeal.Spec.head
  congr 1
  funext i
  obtain ⟨p, q, rfl⟩ : ∃ (p : Fin 100000) (q : Fin 1), i = ix2 p q := ⟨i 0, i 1, eq_ix2 i⟩
  rw [headK_apply, addf_apply, dot2_apply, bias_rows_apply]
  refine congrArg₂ (· + ·) (Finset.sum_congr rfl fun j _ => ?_) (shapeCast_a_1a_apply _ _ _ _)
  rw [maximumf_apply, addf_apply, dot1_apply, bias_rows_apply, zero_apply, shapeCast_a_1a_apply]

end Cert.Bridge

end
-- ==== Proof.lean ====
/-
  The certificate: a two-layer mean-aggregating graph convolution with a two-layer head, computed by three grid
  launches among host operations, against the same network written with plain array operations.

  Both programs aggregate neighbours' features with the same gather, scatter-add and division, so that part is one
  function on both sides.  A convolution layer is `elu (mean · Wlᵀ + b + x · Wrᵀ)` in the reference; the kernel program
  puts `mean` and `x` side by side, `Wl` and `Wr` side by side, and contracts once over the doubled axis:
  `elu ([mean, x] · [Wl, Wr]ᵀ + b)`.  A sum over the doubled axis is the sum of its two halves, and
  `(A + C) + b = (A + b) + C` on the extended reals, so the two agree entry by entry; the two spellings of the
  exponential linear unit (`e^a - 1` against `1 · (e^a' - 1)`) agree at every extended real.  The head is the same two
  contractions on both sides.  Changes of float format are the identity on extended reals; no finiteness is used.
-/
import proofs.«100533_j71442486002111_1_alg».proof.Defs
import proofs.«100533_j71442486002111_1_alg».proof.Proof.Gen.Kernel.Frame
import proofs.«100533_j71442486002111_1_alg».proof.Proof.Gen.Pre_finite_inputs
import proofs.«100533_j71442486002111_1_alg».proof.Proof.KerRun
import proofs.«100533_j71442486002111_1_alg».proof.Proof.KerValue
import proofs.«100533_j71442486002111_1_alg».proof.Proof.RefValue
import proofs.«100533_j71442486002111_1_alg».proof.Proof.BridgeLayers
import proofs.«100533_j71442486002111_1_alg».proof.Proof.BridgeHead

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- The two programs' results are one function of the arguments: layer by layer. -/
theorem out_eq (x : Cert.KernelIdeal.Spec.C Ideal Cert.KernelIdeal.S100000x128 .f32) (e : Cert.KernelIdeal.Spec.C Ideal Cert.KernelIdeal.S2x600000 .i32)
    (W1l : Cert.KernelIdeal.Spec.C Ideal Cert.KernelIdeal.S256x128 .f32) (b1 : Cert.KernelIdeal.Spec.C Ideal Cert.KernelIdeal.S256 .f32)
    (W1r : Cert.KernelIdeal.Spec.C Ideal Cert.KernelIdeal.S256x128 .f32) (W2l : Cert.KernelIdeal.Spec.C Ideal Cert.KernelIdeal.S256x256 .f32)
    (b2 : Cert.KernelIdeal.Spec.C Ideal Cert.KernelIdeal.S256 .f32) (W2r : Cert.KernelIdeal.Spec.C Ideal Cert.KernelIdeal.S256x256 .f32)
    (Wf1 : Cert.KernelIdeal.Spec.C Ideal Cert.KernelIdeal.S128x256 .f32) (bf1 : Cert.KernelIdeal.Spec.C Ideal Cert.KernelIdeal.S128 .f32)
    (Wf2 : Cert.KernelIdeal.Spec.C Ideal Cert.KernelIdeal.S1x128 .f32) (bf2 : Cert.KernelIdeal.Spec.C Ideal Cert.KernelIdeal.S1 .f32) :
    Cert.ReferenceIdeal.Spec.out (F := Ideal) x e W1l b1 W1r W2l b2 W2r Wf1 bf1 Wf2 bf2
      = Cert.KernelIdeal.Spec.out x e W1l b1 W1r W2l b2 W2r Wf1 bf1 Wf2 bf2 := by
  unfold Cert.ReferenceIdeal.Spec.out Cert.KernelIdeal.Spec.out
  rw [Cert.Bridge.head_eq, Cert.Bridge.layer2_eq, Cert.Bridge.layer1_eq]

/-- From memories agreeing on the arguments both programs run and end with the same result vector. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Hand.W7_out m ρ c), (h c).2⟩)
      (Cert.KernelIdeal.Hand.run_out (F := Ideal) m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11⟩ := hagree c
    rw [e0, e1, e2, e3, e4, e5, e6, e7, e8, e9, e10, e11]
    exact out_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
